-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S512x4096 : Shape := ⟨2, ![512, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .bf16⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .bf16 = 32 ∨ (Rect.block (s := S8192x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_6 : Ref sig .tc := ⟨.hbm, 27, rfl⟩
abbrev main_call2_v0 : Ref sig .tc := ⟨.hbm, 28, rfl⟩
abbrev main_call2_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Passes.lean ====
/-
  The two preparatory passes, each a grid of whole-row blocks with a pointwise body: the first rewrites every weight
  entry by the three comparisons, the second changes the format of x. For each: what a point's body leaves in the
  output block as a function of the input block, the body's run, and the data the pipeline's launch theorem asks for,
  all stated at the array contents `V` the pass is entered with.
-/
import proofs.«126211_j23691039605071_2_alg».proof.Proof.Gen.Kernel.Launch
import proofs.«126211_j23691039605071_2_alg».proof.Proof.Gen.Kernel.Skeleton
import proofs.«126211_j23691039605071_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Passes

variable (V : (c : Dev nD) → (b : Ref sig .tc) → Buf (Elt F) ((c : Thread nD τ).loc b))

/-! # Pass 0: the weights, 16 blocks of 256 rows

Every point of the grid takes one block of 256 rows of the weights, whole rows, and writes one block of the same rows: the body reads its
input block once and stores one value over the whole output block. -/

/-- The block of window `w` at point `t`, cut out of the array as the pass finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block at every point, for any proof data over the entry contents whose
    body leaves that block in place: the block index moves at every point, and the window is fetched whenever it moves. -/
theorem before0_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The one rectangle the body touches: the whole block. -/
abbrev whole0 : Rect S256x4096 := Rect.unit (s := S256x4096) ![0, 0] S256x4096.size inb_S256x4096_S256x4096_0_0

/-- What the body leaves in the output's staging buffer, from the input block: its one store, of the body's value of the
    block it loaded. -/
def res0 (x0 : Vec F S256x4096 .f32) : Vec F S256x4096 .bf16 :=
  View.canon [⟨whole0, k0_pay1 (View.ld x0 whole0)⟩]

/-- That one store covers the buffer. -/
theorem res0_cover (p0 : Vec F S256x4096 .bf16) (y : S256x4096.Idx) :
    ∃ pc ∈ ([⟨whole0, p0⟩] : List (View.Piece (Elt F) S256x4096 .bf16)), y ∈ pc.1.set :=
  View.cover_of_tiled [⟨whole0, p0⟩] S256x4096.size (by rfl) y

set_option maxHeartbeats 1000000 in
/-- The body on whole staging buffers, the input's at contents `x0` and the output's at anything, runs to the end with the
    input's buffer as it was and the output's at `res0 x0`. -/
theorem body0_run (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (res0 x0)) -∗ K ⟨⟩))
      ⊢ wp frame (wpE (defs₀ (F := F)) Variants.none c none) E (cc0__dequant_weight_kernel i arg1 harg1 arg2 harg2) K := by
  simp only [cc0__dequant_weight_kernel_eq_skeleton]; unfold cc0__dequant_weight_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (res0_cover _)

/-- The proof data of pass 0 on core `c`: the arrays as the pass finds them; after the body at point `t` the input's
    buffer holds its block and the output's `res0` of that block; the invariant is the scoped rest and the generator
    register, untouched; nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => res0 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = blk0 V c 0 t := by dsimp only [dat0]
theorem dat0_after_out (c : Dev nD) (t : Fin cfg0.N) : (dat0 V c).after 1 t = res0 (blk0 V c 0 t) := by dsimp only [dat0]

theorem dat0_before_in (c : Dev nD) (t : Fin cfg0.N) (d) : (dat0 V c).before 0 t d = blk0 V c 0 t :=
  before0_in_of V (dat0 V c) (dat0_A V c 0) (dat0_after_in V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the run applies; the invariant and what the core owes
    pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body0_run c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pass 0, at every point. -/
theorem body0_obligation (c : Dev nD) : BodyObligation (dat0 (F := F) V c) (defs₀ (F := F)) Variants.none () Set.univ := fun t => by
  rw [bigSep_W0, bigSep_W0]
  exact body0_at V c t

/-! # Pass 1: x, 16 blocks of 512 rows

Every point of the grid takes one block of 512 rows of x, whole rows, and writes one block of the same rows: the body reads its
input block once and stores one value over the whole output block. -/

/-- The block of window `w` at point `t`, cut out of the array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the input's block at every point, for any proof data over the entry contents whose
    body leaves that block in place: the block index moves at every point, and the window is fetched whenever it moves. -/
theorem before1_in_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The one rectangle the body touches: the whole block. -/
abbrev whole1 : Rect S512x4096 := Rect.unit (s := S512x4096) ![0, 0] S512x4096.size inb_S512x4096_S512x4096_0_0

/-- What the body leaves in the output's staging buffer, from the input block: its one store, of the body's value of the
    block it loaded. -/
def res1 (x0 : Vec F S512x4096 .f32) : Vec F S512x4096 .bf16 :=
  View.canon [⟨whole1, k1_pay1 (View.ld x0 whole1)⟩]

/-- That one store covers the buffer. -/
theorem res1_cover (p0 : Vec F S512x4096 .bf16) (y : S512x4096.Idx) :
    ∃ pc ∈ ([⟨whole1, p0⟩] : List (View.Piece (Elt F) S512x4096 .bf16)), y ∈ pc.1.set :=
  View.cover_of_tiled [⟨whole1, p0⟩] S512x4096.size (by rfl) y

set_option maxHeartbeats 1000000 in
/-- The body on whole staging buffers, the input's at contents `x0` and the output's at anything, runs to the end with the
    input's buffer as it was and the output's at `res1 x0`. -/
theorem body1_run (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (res1 x0)) -∗ K ⟨⟩))
      ⊢ wp frame (wpE (defs₀ (F := F)) Variants.none c none) E (cc1__cast_x_kernel i arg1 harg1 arg2 harg2) K := by
  simp only [cc1__cast_x_kernel_eq_skeleton]; unfold cc1__cast_x_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (res1_cover _)

/-- The proof data of pass 1 on core `c`: the arrays as the pass finds them; after the body at point `t` the input's
    buffer holds its block and the output's `res1` of that block; the invariant is the scoped rest and the generator
    register, untouched; nothing is owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => res1 (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_in (c : Dev nD) (t : Fin cfg1.N) : (dat1 V c).after 0 t = blk1 V c 0 t := by dsimp only [dat1]
theorem dat1_after_out (c : Dev nD) (t : Fin cfg1.N) : (dat1 V c).after 1 t = res1 (blk1 V c 0 t) := by dsimp only [dat1]

theorem dat1_before_in (c : Dev nD) (t : Fin cfg1.N) (d) : (dat1 V c).before 0 t d = blk1 V c 0 t :=
  before1_in_of V (dat1 V c) (dat1_A V c 0) (dat1_after_in V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the run applies; the invariant and what the core owes
    pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_in]
  rw [show (dat1 V c).Φ t.succ = (dat1 V c).Φ t.castSucc from rfl,
    show (dat1 V c).owesAt () t.succ = (dat1 V c).owesAt () t.castSucc from rfl,
    dat1_after_in, dat1_after_out]
  iintro ⟨HΦ, Ho, ⟨%d0, H0⟩, ⟨%d1, H1⟩⟩
  iapply (body1_run c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pass 1, at every point. -/
theorem body1_obligation (c : Dev nD) : BodyObligation (dat1 (F := F) V c) (defs₀ (F := F)) Variants.none () Set.univ := fun t => by
  rw [bigSep_W1, bigSep_W1]
  exact body1_at V c t

end Passes

end Cert.Kernel.Fr

end
-- ==== Proof.K.MatmulBase.lean ====
/-
  The product pass, shared facts. Its grid is 8 × 4 × 4: a row block of x (1024 rows), a row block of the quantised weights
  (1024 outputs) and, innermost, one of the four blocks of 1024 contracted inputs. The body clears an accumulator buffer at
  the first inner step, adds the block product at every step and, at the last inner step, stores accumulator plus bias
  into the output block. Here: the two conditions in closed form over the grid, where the output block is left alone,
  the buffers the body is called with, and the input blocks read off the entry contents `V`.
-/
import proofs.«126211_j23691039605071_2_alg».proof.Proof.Gen.Kernel.Launch
import proofs.«126211_j23691039605071_2_alg».proof.Proof.Gen.Kernel.Skeleton
import proofs.«126211_j23691039605071_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "this is the first inner step": the inner coordinate is 0. -/
abbrev first (i : grid2.Coords) : Prop := (Scalar.cmpi .ne (Scalar.extui (Scalar.cmpi .eq (BitVec.ofNat 32 (i 2).val) 0#32)) 0#32) = 1#1
theorem first_iff : ∀ t : Fin cfg2.N, first (grid2.coords t) ↔ t.val % 4 = 0 :=
  (by decide +kernel : ∀ t : Fin grid2.N, first (grid2.coords t) ↔ t.val % 4 = 0)

/-- "this is the last inner step": the inner coordinate is 3. -/
abbrev last (i : grid2.Coords) : Prop := k2_cond2 i = 1#1
theorem last_iff : ∀ t : Fin cfg2.N, last (grid2.coords t) ↔ t.val % 4 = 3 :=
  (by decide +kernel : ∀ t : Fin grid2.N, last (grid2.coords t) ↔ t.val % 4 = 3)

/-! ## Where the windows are live -/

theorem live_x : ∀ t : Fin cfg2.N, cfg2.idle 0 (grid2.coords t) = false := by decide +kernel
theorem live_w : ∀ t : Fin cfg2.N, cfg2.idle 1 (grid2.coords t) = false := by decide +kernel
theorem live_b : ∀ t : Fin cfg2.N, cfg2.idle 2 (grid2.coords t) = false := by decide +kernel
/-- Away from the last inner step the output block is not stored into and not written back. -/
theorem idle_out : ∀ t : Fin cfg2.N, ¬last (grid2.coords t) → cfg2.idle 3 (grid2.coords t) = true := by decide +kernel
theorem noflush_out : ∀ t : Fin cfg2.N, ¬last (grid2.coords t) → (cfg2.win 3).flush t = false := by decide +kernel
/-- At the last inner step it is stored into. -/
theorem live_out : ∀ t : Fin cfg2.N, last (grid2.coords t) → cfg2.idle 3 (grid2.coords t) = false := by decide +kernel

/-! ## The buffers the body is called with -/

abbrev mX (t : Fin cfg2.N) : Memref sig .tc .vmem S1024x1024 .bf16 := win2_0.stage (cfg2.slots t 0)
abbrev hX (t : Fin cfg2.N) : (mX t).IsWhole := hstage2_0 ((cfg2.slots t 0).cast nbuf2_0)
abbrev mW (t : Fin cfg2.N) : Memref sig .tc .vmem S1024x1024 .bf16 := win2_1.stage (cfg2.slots t 1)
abbrev hW (t : Fin cfg2.N) : (mW t).IsWhole := hstage2_1 ((cfg2.slots t 1).cast nbuf2_1)
abbrev mB (t : Fin cfg2.N) : Memref sig .tc .vmem S1x1024 .f32 := win2_2.stage (cfg2.slots t 2)
abbrev hB (t : Fin cfg2.N) : (mB t).IsWhole := hstage2_2 ((cfg2.slots t 2).cast nbuf2_2)
abbrev mO (t : Fin cfg2.N) : Memref sig .tc .vmem S1024x1024 .f32 := win2_3.stage (cfg2.slots t 3)
abbrev hO (t : Fin cfg2.N) : (mO t).IsWhole := hstage2_3 ((cfg2.slots t 3).cast nbuf2_3)
/-- The accumulator: a whole scoped buffer of the pass's own, the same at every point. -/
abbrev mAcc : Memref sig .tc .vmem S1024x1024 .f32 := Memref.whole cc2_scratch0
/-- The views through which the accumulator's and the output block's contents are stated. -/
abbrev vAcc : View sig .tc .vmem S1024x1024 .f32 := mAcc.view
abbrev vOut : View sig .tc .vmem S1024x1024 .f32 := (Memref.whole cc2_stg3_0 : Memref sig .tc .vmem S1024x1024 .f32).view

/-- The class invariant with the accumulator split out as a buffer owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) mAcc fullShare d)) ∗ (∃ r, prngReg c r)) := by
  unfold Pipeline.ΦA; rw [scopedRest2_eq]; simp only [mAcc, owns_whole]; try rfl

section Blocks

variable (V : (c : Dev nD) → (b : Ref sig .tc) → Buf (Elt F) ((c : Thread nD τ).loc b))

/-- The block of window `w` at point `t`, cut out of the array as the pass finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds that input's block at every point, fetched there or not (where it is not fetched
    the block index has not moved), for any proof data over the entry contents whose body leaves the block in place. -/
theorem before2_x_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_w_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_b_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

end Blocks

end Cert.Kernel.Fr

end
-- ==== Proof.K.MatmulFirst.lean ====
/-
  The product pass at a first inner step: the accumulator, whatever it held, is cleared and then receives the first block
  product; the output block is left as it was.
-/
import proofs.«126211_j23691039605071_2_alg».proof.Proof.K.MatmulBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator (last first), with the proof that on whole buffers — the three
    inputs at their contents, the output block at contents handed back untouched, the accumulator at anything — the body
    runs to the end with the inputs as they were and the accumulator with those pieces written. -/
noncomputable def runFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i)
    (x0 : Vec F S1024x1024 .bf16) (x1 : Vec F S1024x1024 .bf16) (x2 : Vec F S1x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Fr

end
-- ==== Proof.K.MatmulMid.lean ====
/-
  The product pass at an inner step that is neither first nor last: the accumulator, holding what the step before left,
  receives one more block product; the output block is left as it was.
-/
import proofs.«126211_j23691039605071_2_alg».proof.Proof.K.MatmulBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the accumulator, with the proof that on whole buffers — the three inputs at their
    contents, the output block at contents handed back untouched, the accumulator at `xs` — the body runs to the end with the
    inputs as they were and the accumulator with those pieces written. -/
noncomputable def runMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i)
    (x0 : Vec F S1024x1024 .bf16) (x1 : Vec F S1024x1024 .bf16) (x2 : Vec F S1x1024 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Fr

end
-- ==== Proof.K.MatmulLast.lean ====
/-
  The product pass at a last inner step: the accumulator, holding what the step before left, receives the last block
  product, and accumulator plus bias row is stored over the whole output block.
-/
import proofs.«126211_j23691039605071_2_alg».proof.Proof.K.MatmulBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the accumulator, with the proof that on whole buffers —
    the three inputs at their contents, the output block at anything, the accumulator at `xs` — the body runs to the end with
    the inputs as they were and both with those pieces written. -/
noncomputable def runLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i)
    (x0 : Vec F S1024x1024 .bf16) (x1 : Vec F S1024x1024 .bf16) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Fr

end
-- ==== Proof.K.Matmul.lean ====
/-
  The product pass, point by point. The accumulator is carried from one grid point to the next: after a first inner step
  it holds the first block product over a cleared buffer, after every later step what it held plus that step's block
  product; at a last inner step the output block receives the accumulator plus the bias row. Here: those contents as
  functions of the point's input blocks (`accAt`, `outAt`), the invariant that hands the accumulator from point to point,
  the pipeline's proof data and the body obligation, all at the entry contents `V`.
-/
import proofs.«126211_j23691039605071_2_alg».proof.Proof.K.MatmulFirst
import proofs.«126211_j23691039605071_2_alg».proof.Proof.K.MatmulMid
import proofs.«126211_j23691039605071_2_alg».proof.Proof.K.MatmulLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Points

variable (V : (c : Dev nD) → (b : Ref sig .tc) → Buf (Elt F) ((c : Thread nD τ).loc b))

/-! ## What one point leaves, case by case -/

/-- The accumulator after a first inner step: the run's pieces read back. -/
def accFirst (c : Dev nD) (t : Fin cfg2.N) (h0 : t.val % 4 = 0) (h3 : ¬t.val % 4 = 3) : Vec F S1024x1024 .f32 :=
  vAcc.read (Elt F) (vAcc.writes (Elt F) vAcc.junk (runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).1)
theorem accFirst_cover (c : Dev nD) (t : Fin cfg2.N) (h0 : t.val % 4 = 0) (h3 : ¬t.val % 4 = 3) (y : S1024x1024.Idx) :
    ∃ pc ∈ (runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).1, y ∈ pc.1.set :=
  View.cover_of_tiledL (runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).1 S1024x1024.size (by sl_kernel_rfl) y

/-- The accumulator after a middle step that found it at `xs`. -/
def accMid (c : Dev nD) (t : Fin cfg2.N) (h0 : ¬t.val % 4 = 0) (h3 : ¬t.val % 4 = 3) (xs : Vec F S1024x1024 .f32) : Vec F S1024x1024 .f32 :=
  vAcc.read (Elt F) (vAcc.writes (Elt F) vAcc.junk (runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) xs).1)
theorem accMid_cover (c : Dev nD) (t : Fin cfg2.N) (h0 : ¬t.val % 4 = 0) (h3 : ¬t.val % 4 = 3) (xs : Vec F S1024x1024 .f32) (y : S1024x1024.Idx) :
    ∃ pc ∈ (runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) xs).1, y ∈ pc.1.set :=
  View.cover_of_tiledL (runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) xs).1 S1024x1024.size (by sl_kernel_rfl) y

/-- The accumulator and the output block after a last inner step that found the accumulator at `xs`. -/
def accLast (c : Dev nD) (t : Fin cfg2.N) (h0 : ¬t.val % 4 = 0) (h3 : t.val % 4 = 3) (xs : Vec F S1024x1024 .f32) : Vec F S1024x1024 .f32 :=
  vAcc.read (Elt F) (vAcc.writes (Elt F) vAcc.junk (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).2.1)
theorem accLast_cover (c : Dev nD) (t : Fin cfg2.N) (h0 : ¬t.val % 4 = 0) (h3 : t.val % 4 = 3) (xs : Vec F S1024x1024 .f32) (y : S1024x1024.Idx) :
    ∃ pc ∈ (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).2.1, y ∈ pc.1.set :=
  View.cover_of_tiledL (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).2.1 S1024x1024.size (by sl_kernel_rfl) y
def outLast (c : Dev nD) (t : Fin cfg2.N) (h0 : ¬t.val % 4 = 0) (h3 : t.val % 4 = 3) (xs : Vec F S1024x1024 .f32) : Vec F S1024x1024 .f32 :=
  vOut.read (Elt F) (vOut.writes (Elt F) vOut.junk (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).1)
theorem outLast_cover (c : Dev nD) (t : Fin cfg2.N) (h0 : ¬t.val % 4 = 0) (h3 : t.val % 4 = 3) (xs : Vec F S1024x1024 .f32) (y : S1024x1024.Idx) :
    ∃ pc ∈ (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).1, y ∈ pc.1.set :=
  View.cover_of_tiledL (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).1 S1024x1024.size (by sl_kernel_rfl) y

/-! ## The accumulation over the grid's points -/

/-- What the accumulator holds after the body at position `n`: cleared and loaded at a first inner step, otherwise what
    position `n - 1` left plus this step's block product. -/
def accAt (c : Dev nD) : (n : ℕ) → n < cfg2.N → Vec F S1024x1024 .f32
  | 0, hn => accFirst V c ⟨0, hn⟩ (Nat.zero_mod _) (show ¬(0 : ℕ) % 4 = 3 by decide)
  | n + 1, hn =>
    if h0 : (n + 1) % 4 = 0 then accFirst V c ⟨n + 1, hn⟩ h0 (show ¬(n + 1) % 4 = 3 by omega)
    else if h3 : (n + 1) % 4 = 3 then accLast V c ⟨n + 1, hn⟩ h0 h3 (accAt c n (Nat.lt_of_succ_lt hn))
    else accMid V c ⟨n + 1, hn⟩ h0 h3 (accAt c n (Nat.lt_of_succ_lt hn))

theorem accAt_first (c : Dev nD) (t : Fin cfg2.N) (h0 : t.val % 4 = 0) (h3 : ¬t.val % 4 = 3) :
    accAt V c t.val t.isLt = accFirst V c t h0 h3 := by
  obtain ⟨n, hn⟩ := t
  cases n with
  | zero => rfl
  | succ n => exact dif_pos h0
theorem accAt_mid (c : Dev nD) (t : Fin cfg2.N) (h0 : ¬t.val % 4 = 0) (h3 : ¬t.val % 4 = 3) :
    accAt V c t.val t.isLt = accMid V c t h0 h3 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem accAt_last (c : Dev nD) (t : Fin cfg2.N) (h0 : ¬t.val % 4 = 0) (h3 : t.val % 4 = 3) :
    accAt V c t.val t.isLt = accLast V c t h0 h3 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- What the output block's buffer holds after the body at point `t`: at a last inner step the stored sum; elsewhere the
    buffer is neither stored into nor written back nor read, and a placeholder stands for it. -/
def outAt (c : Dev nD) (t : Fin cfg2.N) : Vec F S1024x1024 .f32 :=
  if h3 : t.val % 4 = 3 then
    outLast V c t (show ¬t.val % 4 = 0 by omega) h3 (accAt V c (t.val - 1) (Nat.lt_of_le_of_lt (Nat.sub_le _ _) t.isLt))
  else vOut.read (Elt F) vOut.junk

theorem outAt_last (c : Dev nD) (t : Fin cfg2.N) (h0 : ¬t.val % 4 = 0) (h3 : t.val % 4 = 3) :
    outAt V c t = outLast V c t h0 h3 (accAt V c (t.val - 1) (Nat.lt_of_le_of_lt (Nat.sub_le _ _) t.isLt)) := dif_pos h3

/-! ## The invariant between points -/

/-- The scoped buffers of the other two passes, each whole at some contents. -/
abbrev others (c : Dev nD) : sProp 𝕄 :=
  bigSepL [cc0_stg0_0, cc0_stg0_1, cc0_stg1_0, cc0_stg1_1, cc1_stg0_0, cc1_stg0_1, cc1_stg1_0, cc1_stg1_1] fun b =>
    iprop(∃ f : Buf (Elt F) ((c : Thread nD τ).loc b), ((c : Thread nD τ).loc b) ↦{fullShare} f)

/-- The class invariant with the accumulator first, owned at some contents. -/
theorem PhiA2_acc (c : Dev nD) :
    (Pipeline.ΦA spec2 c : sProp 𝕄) = iprop(iprop((∃ d, owns (c : Thread nD τ) mAcc fullShare d) ∗ others c) ∗ (∃ r, prngReg c r)) := by
  unfold Pipeline.ΦA
  rw [Pipeline.scopedRest_eq_of_list spec2 c [cc2_scratch0, cc0_stg0_0, cc0_stg0_1, cc0_stg1_0, cc0_stg1_1, cc1_stg0_0, cc1_stg0_1, cc1_stg1_0, cc1_stg1_1] (by decide) (by decide)]
  simp only [mAcc, owns_whole]; try rfl

/-- Before position `n`: before the first point the class invariant (the accumulator at anything); afterwards the
    accumulator at what the point before left, the other scoped buffers and the generator register as they come. -/
def PhiS (c : Dev nD) : (n : ℕ) → n ≤ cfg2.N → sProp 𝕄
  | 0, _ => Pipeline.ΦA spec2 c
  | n + 1, hn => iprop(iprop(owns (c : Thread nD τ) mAcc fullShare (accAt V c n hn) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) mAcc fullShare (accAt V c n hn) ∗ others c) ∗ (∃ r, prngReg c r)) := rfl
theorem PhiS_pos (c : Dev nD) (n : ℕ) (h : n ≤ cfg2.N) (hz : n ≠ 0) :
    PhiS V c n h = iprop(iprop(owns (c : Thread nD τ) mAcc fullShare (accAt V c (n - 1) (by omega)) ∗ others c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => outAt V c t
  Φ t := PhiS V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_Phi_start (c : Dev nD) (t : Fin cfg2.N) :
    (dat2 V c).Φ t.castSucc = PhiS V c t.val (Nat.le_of_lt t.isLt) := by
  dsimp only [dat2]; simp only [Fin.coe_castSucc]
theorem dat2_after_x (c : Dev nD) (t : Fin cfg2.N) : (dat2 V c).after 0 t = blk2 V c 0 t := by dsimp only [dat2]
theorem dat2_after_w (c : Dev nD) (t : Fin cfg2.N) : (dat2 V c).after 1 t = blk2 V c 1 t := by dsimp only [dat2]
theorem dat2_after_b (c : Dev nD) (t : Fin cfg2.N) : (dat2 V c).after 2 t = blk2 V c 2 t := by dsimp only [dat2]
theorem dat2_after_out (c : Dev nD) (t : Fin cfg2.N) : (dat2 V c).after 3 t = outAt V c t := by dsimp only [dat2]
theorem dat2_before_x (c : Dev nD) (t : Fin cfg2.N) (d) : (dat2 V c).before 0 t d = blk2 V c 0 t :=
  before2_x_of V (dat2 V c) (dat2_A V c 0) (dat2_after_x V c) t d
theorem dat2_before_w (c : Dev nD) (t : Fin cfg2.N) (d) : (dat2 V c).before 1 t d = blk2 V c 1 t :=
  before2_w_of V (dat2 V c) (dat2_A V c 1) (dat2_after_w V c) t d
theorem dat2_before_b (c : Dev nD) (t : Fin cfg2.N) (d) : (dat2 V c).before 2 t d = blk2 V c 2 t :=
  before2_b_of V (dat2 V c) (dat2_A V c 2) (dat2_after_b V c) t d

/-! ## The body obligation -/

def pre2 (c : Dev nD) (t : Fin cfg2.N) : sProp 𝕄 :=
  iprop((dat2 V c).Φ t.castSucc ∗ (dat2 V c).owesAt () t.castSucc
    ∗ (∃ d, owns (c : Thread nD τ) (mX t) fullShare ((dat2 V c).before 0 t d))
    ∗ (∃ d, owns (c : Thread nD τ) (mW t) fullShare ((dat2 V c).before 1 t d))
    ∗ (∃ d, owns (c : Thread nD τ) (mB t) fullShare ((dat2 V c).before 2 t d))
    ∗ (∃ d, owns (c : Thread nD τ) (mO t) fullShare ((dat2 V c).before 3 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position modulo 4 says which case it is in;
    the invariant hands the body the accumulator (at anything at the very first point, otherwise at what the point before
    left) and takes it back at this point's contents; away from a last inner step the output block's buffer passes through
    untouched. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_x, dat2_before_w, dat2_before_b]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (mX t) fullShare ((dat2 V c).after 0 t) from by
        unfold Dat.leavesExact; rw [live_x t], dat2_after_x,
      show (dat2 V c).leavesExact 1 t = owns (c : Thread nD τ) (mW t) fullShare ((dat2 V c).after 1 t) from by
        unfold Dat.leavesExact; rw [live_w t], dat2_after_w,
      show (dat2 V c).leavesExact 2 t = owns (c : Thread nD τ) (mB t) fullShare ((dat2 V c).after 2 t) from by
        unfold Dat.leavesExact; rw [live_b t], dat2_after_b]
  have hN : t.val < 128 := lt_of_lt_of_eq t.isLt (show cfg2.N = 128 from N_2)
  by_cases h0 : t.val % 4 = 0
  · by_cases h3 : t.val % 4 = 3
    · exfalso; omega
    · rw [Dat.leavesExact_idle (dat2 V c) 3 t (idle_out t (fun h => h3 ((last_iff t).mp h))) (noflush_out t (fun h => h3 ((last_iff t).mp h)))]
      rw [accAt_first V c t h0 h3]
      unfold accFirst; (try dsimp only)
      by_cases hz : t.val = 0
      · rw [dat2_Phi_start V c t, PhiS_zero V c _ _ hz, PhiA2_acc]
        iintro ⟨⟨⟨HS, Hr⟩, Hg⟩, Ho, ⟨%d0, H0⟩, ⟨%d1, H1⟩, ⟨%d2, H2⟩, ⟨%d3, H3⟩⟩
        iapply ((runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h3)
            iexact Hr
          iexact Hg
        isplitl [Ho]; · iexact Ho
        isplitl [H0]; · iexact H0
        isplitl [H1]; · iexact H1
        isplitl [H2]; · iexact H2
        iexists _; iexact H3
      · rw [dat2_Phi_start V c t, PhiS_pos V c _ _ hz]
        iintro ⟨⟨⟨HS, Hr⟩, Hg⟩, Ho, ⟨%d0, H0⟩, ⟨%d1, H1⟩, ⟨%d2, H2⟩, ⟨%d3, H3⟩⟩
        iapply ((runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h3)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h3 : t.val % 4 = 3
    · rw [show (dat2 V c).leavesExact 3 t = owns (c : Thread nD τ) (mO t) fullShare ((dat2 V c).after 3 t) from by
        unfold Dat.leavesExact; rw [live_out t ((last_iff t).mpr h3)], dat2_after_out]
      rw [accAt_last V c t h0 h3, outAt_last V c t h0 h3]
      unfold accLast outLast; (try dsimp only)
      rw [dat2_Phi_start V c t, PhiS_pos V c _ _ hz]
      iintro ⟨⟨⟨HS, Hr⟩, Hg⟩, Ho, ⟨%d0, H0⟩, ⟨%d1, H1⟩, ⟨%d2, H2⟩, ⟨%d3, H3⟩⟩
      iapply ((runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (accLast_cover V c t h0 h3 _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t h0 h3 _)
    · rw [Dat.leavesExact_idle (dat2 V c) 3 t (idle_out t (fun h => h3 ((last_iff t).mp h))) (noflush_out t (fun h => h3 ((last_iff t).mp h)))]
      rw [accAt_mid V c t h0 h3]
      unfold accMid; (try dsimp only)
      rw [dat2_Phi_start V c t, PhiS_pos V c _ _ hz]
      iintro ⟨⟨⟨HS, Hr⟩, Hg⟩, Ho, ⟨%d0, H0⟩, ⟨%d1, H1⟩, ⟨%d2, H2⟩, ⟨%d3, H3⟩⟩
      iapply ((runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (accMid_cover V c t h0 h3 _)
          iexact Hr
        iexact Hg
      isplitl [Ho]; · iexact Ho
      isplitl [H0]; · iexact H0
      isplitl [H1]; · iexact H1
      isplitl [H2]; · iexact H2
      iexists _; iexact H3

/-- The body obligation of the product pass, at every point. -/
theorem body2_obligation (c : Dev nD) : BodyObligation (dat2 (F := F) V c) (defs₀ (F := F)) Variants.none () Set.univ := fun t => by
  rw [bigSep_W2, bigSep_W2]
  exact body2_at V c t

/-- What the launch hands the pass is the invariant before the first point. -/
theorem Phi2_in (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class invariant back: what the accumulator holds is forgotten. -/
theorem Phi2_out (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 128 := N_2; omega), PhiA2_acc]
  iintro ⟨⟨HS, Hr⟩, Hg⟩
  isplitl [HS Hr]
  · isplitl [HS]
    · iexists _; iexact HS
    iexact Hr
  iexact Hg

end Points

end Cert.Kernel.Fr

end
-- ==== Proof.K.Frame.lean ====
/-
  The whole program as four segments — the weight pass, the x pass, one host reshape of the bias to a row, the product
  pass — run from the launch to the return. The contents of every unscoped buffer at each segment boundary are a fold from
  the launch memory: a pass changes its arrays to what its write-backs leave and nothing else, the host operation writes
  its result. The run ends with every unscoped buffer at the last boundary's contents; the three argument arrays are read
  back through the fold to their launch contents, and the result array is what the product pass leaves.
-/
import proofs.«126211_j23691039605071_2_alg».proof.Proof.K.Passes
import proofs.«126211_j23691039605071_2_alg».proof.Proof.K.Matmul

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev mem0 : Dev nD → Valuation τ sig (Elt F) := fun c b => (s₀ m ρ).mem ((c : Dev nD), b)
/-- The same read at the TensorCore's references (what the weight pass is entered with). -/
abbrev ent0 : (c : Dev nD) → (b : Ref sig .tc) → Buf (Elt F) ((c : Thread nD τ).loc b) := fun c b => mem0 m ρ c b

/-- After pass 0: its arrays at what the pipeline leaves (the inputs as entered, the output's write-backs folded), every
    other buffer as entered. -/
def mem1 (c : Dev nD) : Valuation τ sig (Elt F) :=
  Pipeline.withArrays spec0 c (mem0 m ρ c) fun w => (dat0 (ent0 m ρ) c).arrAt w cfg0.N
theorem mem1_arr (c : Dev nD) (w : Fin cfg0.W) :
    mem1 m ρ c (Proc.devRef .tc (Pipeline.arrRef spec0 w)) = (dat0 (ent0 m ρ) c).arrAt w cfg0.N := by
  unfold mem1; exact Pipeline.withArrays_arr spec0 launch0.win.arr_inj c _ _ w
theorem mem1_of_ne (c : Dev nD) (b : Ref sig .tc) (hb : ∀ w, Pipeline.arrRef spec0 w ≠ b) :
    mem1 m ρ c (Proc.devRef .tc b) = mem0 m ρ c (Proc.devRef .tc b) := by
  unfold mem1; exact Pipeline.withArrays_of_ne spec0 c _ _ b hb
/-- The same read at the TensorCore's references. -/
abbrev ent1 : (c : Dev nD) → (b : Ref sig .tc) → Buf (Elt F) ((c : Thread nD τ).loc b) := fun c b => mem1 m ρ c b
theorem left0 (c : Dev nD) (w : Fin cfg0.W) : (dat0 (ent0 m ρ) c).arrAt w cfg0.N = ent1 m ρ c (Pipeline.arrRef spec0 w) :=
  (mem1_arr m ρ c w).symm
theorem kept0 (c : Dev nD) : ∀ b, b ∉ Finset.univ.image (Pipeline.arrRef spec0) → ent1 m ρ c b = ent0 m ρ c b :=
  fun b hb => mem1_of_ne m ρ c b fun w e => hb (Finset.mem_image.mpr ⟨w, Finset.mem_univ _, e⟩)

/-- After pass 1: its arrays at what the pipeline leaves (the inputs as entered, the output's write-backs folded), every
    other buffer as entered. -/
def mem2 (c : Dev nD) : Valuation τ sig (Elt F) :=
  Pipeline.withArrays spec1 c (mem1 m ρ c) fun w => (dat1 (ent1 m ρ) c).arrAt w cfg1.N
theorem mem2_arr (c : Dev nD) (w : Fin cfg1.W) :
    mem2 m ρ c (Proc.devRef .tc (Pipeline.arrRef spec1 w)) = (dat1 (ent1 m ρ) c).arrAt w cfg1.N := by
  unfold mem2; exact Pipeline.withArrays_arr spec1 launch1.win.arr_inj c _ _ w
theorem mem2_of_ne (c : Dev nD) (b : Ref sig .tc) (hb : ∀ w, Pipeline.arrRef spec1 w ≠ b) :
    mem2 m ρ c (Proc.devRef .tc b) = mem1 m ρ c (Proc.devRef .tc b) := by
  unfold mem2; exact Pipeline.withArrays_of_ne spec1 c _ _ b hb
/-- The same read at the TensorCore's references. -/
abbrev ent2 : (c : Dev nD) → (b : Ref sig .tc) → Buf (Elt F) ((c : Thread nD τ).loc b) := fun c b => mem2 m ρ c b
theorem left1 (c : Dev nD) (w : Fin cfg1.W) : (dat1 (ent1 m ρ) c).arrAt w cfg1.N = ent2 m ρ c (Pipeline.arrRef spec1 w) :=
  (mem2_arr m ρ c w).symm
theorem kept1 (c : Dev nD) : ∀ b, b ∉ Finset.univ.image (Pipeline.arrRef spec1) → ent2 m ρ c b = ent1 m ρ c b :=
  fun b hb => mem2_of_ne m ρ c b fun w e => hb (Finset.mem_image.mpr ⟨w, Finset.mem_univ _, e⟩)

/-- After the host reshape of the bias (what the product pass is entered with). -/
abbrev mem3 : Dev nD → Valuation τ sig (Elt F) := fun c => StableHlo.after hostOps2 (mem2 m ρ c)
abbrev ent3 : (c : Dev nD) → (b : Ref sig .tc) → Buf (Elt F) ((c : Thread nD τ).loc b) := fun c b => mem3 m ρ c b

/-- After pass 2: its arrays at what the pipeline leaves (the inputs as entered, the output's write-backs folded), every
    other buffer as entered. -/
def mem4 (c : Dev nD) : Valuation τ sig (Elt F) :=
  Pipeline.withArrays spec2 c (mem3 m ρ c) fun w => (dat2 (ent3 m ρ) c).arrAt w cfg2.N
theorem mem4_arr (c : Dev nD) (w : Fin cfg2.W) :
    mem4 m ρ c (Proc.devRef .tc (Pipeline.arrRef spec2 w)) = (dat2 (ent3 m ρ) c).arrAt w cfg2.N := by
  unfold mem4; exact Pipeline.withArrays_arr spec2 launch2.win.arr_inj c _ _ w
theorem mem4_of_ne (c : Dev nD) (b : Ref sig .tc) (hb : ∀ w, Pipeline.arrRef spec2 w ≠ b) :
    mem4 m ρ c (Proc.devRef .tc b) = mem3 m ρ c (Proc.devRef .tc b) := by
  unfold mem4; exact Pipeline.withArrays_of_ne spec2 c _ _ b hb
/-- The same read at the TensorCore's references. -/
abbrev ent4 : (c : Dev nD) → (b : Ref sig .tc) → Buf (Elt F) ((c : Thread nD τ).loc b) := fun c b => mem4 m ρ c b
theorem left2 (c : Dev nD) (w : Fin cfg2.W) : (dat2 (ent3 m ρ) c).arrAt w cfg2.N = ent4 m ρ c (Pipeline.arrRef spec2 w) :=
  (mem4_arr m ρ c w).symm
theorem kept2 (c : Dev nD) : ∀ b, b ∉ Finset.univ.image (Pipeline.arrRef spec2) → ent4 m ρ c b = ent3 m ρ c b :=
  fun b hb => mem4_of_ne m ρ c b fun w e => hb (Finset.mem_image.mpr ⟨w, Finset.mem_univ _, e⟩)

/-! ## No segment writes an argument -/

theorem reshape_keeps (c : Dev nD) (b : Ref sig .tc) (hb : b ≠ main_v2) :
    mem3 m ρ c (Proc.devRef .tc b) = mem2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- x reaches the end as launched: the x pass reads it through its input window, nothing else touches it. -/
theorem mem4_x (c : Dev nD) : mem4 m ρ c (Proc.devRef .tc main_arg0) = m ((c : Thread nD τ).loc main_arg0) :=
  calc mem4 m ρ c (Proc.devRef .tc main_arg0)
    _ = mem3 m ρ c (Proc.devRef .tc main_arg0) := mem4_of_ne m ρ c main_arg0 (by decide)
    _ = mem2 m ρ c (Proc.devRef .tc main_arg0) := reshape_keeps m ρ c main_arg0 (by decide)
    _ = mem1 m ρ c (Proc.devRef .tc main_arg0) := (mem2_arr m ρ c 0).trans (((dat1 (ent1 m ρ) c).arrAt_in 0 rfl _).trans (dat1_A (ent1 m ρ) c 0))
    _ = mem0 m ρ c (Proc.devRef .tc main_arg0) := mem1_of_ne m ρ c main_arg0 (by decide)
    _ = m ((c : Thread nD τ).loc main_arg0) := rfl
/-- The weights reach the end as launched: the weight pass reads them through its input window. -/
theorem mem4_w (c : Dev nD) : mem4 m ρ c (Proc.devRef .tc main_arg1) = m ((c : Thread nD τ).loc main_arg1) :=
  calc mem4 m ρ c (Proc.devRef .tc main_arg1)
    _ = mem3 m ρ c (Proc.devRef .tc main_arg1) := mem4_of_ne m ρ c main_arg1 (by decide)
    _ = mem2 m ρ c (Proc.devRef .tc main_arg1) := reshape_keeps m ρ c main_arg1 (by decide)
    _ = mem1 m ρ c (Proc.devRef .tc main_arg1) := mem2_of_ne m ρ c main_arg1 (by decide)
    _ = mem0 m ρ c (Proc.devRef .tc main_arg1) := (mem1_arr m ρ c 0).trans (((dat0 (ent0 m ρ) c).arrAt_in 0 rfl _).trans (dat0_A (ent0 m ρ) c 0))
    _ = m ((c : Thread nD τ).loc main_arg1) := rfl
/-- The bias reaches the end as launched: only the host reshape reads it. -/
theorem mem4_b (c : Dev nD) : mem4 m ρ c (Proc.devRef .tc main_arg2) = m ((c : Thread nD τ).loc main_arg2) :=
  calc mem4 m ρ c (Proc.devRef .tc main_arg2)
    _ = mem3 m ρ c (Proc.devRef .tc main_arg2) := mem4_of_ne m ρ c main_arg2 (by decide)
    _ = mem2 m ρ c (Proc.devRef .tc main_arg2) := reshape_keeps m ρ c main_arg2 (by decide)
    _ = mem1 m ρ c (Proc.devRef .tc main_arg2) := mem2_of_ne m ρ c main_arg2 (by decide)
    _ = mem0 m ρ c (Proc.devRef .tc main_arg2) := mem1_of_ne m ρ c main_arg2 (by decide)
    _ = m ((c : Thread nD τ).loc main_arg2) := rfl

/-! ## The proof data family and the thread state -/

/-- No pass has a prefetched table. -/
abbrev noTables : (p : Fin 3) → (pcfgs (F := F) p).Adm := fun p => (cfgs p).toPCfg_adm
/-- Every pass's proof data, each at the contents it is entered with. -/
def pdats : (p : Fin 3) → (c : Dev nD) → Dat τ (Elt F) Unit ℕ (UR sig nD τ) ℕ (Pipeline.pin (pcfgs (F := F)) noTables p) c
  | ⟨0, _⟩ => fun c => dat0 (ent0 m ρ) c
  | ⟨1, _⟩ => fun c => dat1 (ent1 m ρ) c
  | ⟨2, _⟩ => fun c => dat2 (ent3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor
/-- The host reshape as a segment over the unscoped references. -/
abbrev reshapeSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (mem2 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tend (c : Dev nD) : sProp 𝕄 := iprop(StableHlo.held (c : Thread nD τ) (Pipeline.ucRefs τ sig) (mem4 m ρ c) ∗ ∃ r, prngReg c r)

/-! ## The passes as segments -/

-- a library lemma stated over the pinned configuration unifies with the printed one only when unification may unfold
-- plain definitions in a metavariable's type
set_option backward.isDefEq.respectTransparency.types false in
/-- Pass 0 over the thread state: entered with every unscoped buffer at `mem0`, left with them at `mem1`. Its arrays are
    split out of the unscoped buffers and put back at what the write-backs leave; the generator register goes into the
    class invariant and comes out; nothing is owed; the pass has no semaphore of its own. -/
def pass0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (ent0 m ρ) c).loose
  hwaits := Pipeline.hwaits_of_owed_zero _ _ _ _ L lv 0 fun _ _ => rfl
  pre c := iprop(StableHlo.held (c : Thread nD τ) (Pipeline.ucRefs τ sig) (mem0 m ρ c) ∗ R c)
  post c := iprop(StableHlo.held (c : Thread nD τ) (Pipeline.ucRefs τ sig) (mem1 m ρ c) ∗ R c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (ent0 m ρ c) (ent1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 1 over the thread state: entered with every unscoped buffer at `mem1`, left with them at `mem2`. Its arrays are
    split out of the unscoped buffers and put back at what the write-backs leave; the generator register goes into the
    class invariant and comes out; nothing is owed; the pass has no semaphore of its own. -/
def pass1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (ent1 m ρ) c).loose
  hwaits := Pipeline.hwaits_of_owed_zero _ _ _ _ L lv 1 fun _ _ => rfl
  pre c := iprop(StableHlo.held (c : Thread nD τ) (Pipeline.ucRefs τ sig) (mem1 m ρ c) ∗ R c)
  post c := iprop(StableHlo.held (c : Thread nD τ) (Pipeline.ucRefs τ sig) (mem2 m ρ c) ∗ R c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (ent1 m ρ c) (ent2 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 2 over the thread state: entered with every unscoped buffer at `mem3`, left with them at `mem4`. Its arrays are
    split out of the unscoped buffers and put back at what the write-backs leave; the generator register goes into the
    class invariant and comes out; nothing is owed; the pass has no semaphore of its own. -/
def pass2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (ent3 m ρ) c).loose
  hwaits := Pipeline.hwaits_of_owed_zero _ _ _ _ L lv 2 fun _ _ => rfl
  pre c := iprop(StableHlo.held (c : Thread nD τ) (Pipeline.ucRefs τ sig) (mem3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent3 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from Phi2_out (ent3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (ent3 m ρ c) (ent4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ 𝒱₀ L lv) :=
  [ .region (pass0 m ρ),
    .region (pass1 m ρ),
    .host (reshapeSeg m ρ),
    .region (pass2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem4 m ρ c) s')
      isplitl [Hh] <;> iassumption)
    (hQ := fun s h c => h c)

/-- The frame claim: every execution terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (mem4_x m ρ c),
     (h c _ (mem_uc main_arg1 (by decide))).trans (mem4_w m ρ c),
     (h c _ (mem_uc main_arg2 (by decide))).trans (mem4_b m ρ c)⟩) (run_all m ρ)

/-- The run with the result array named: it ends at what the product pass leaves in its output array, the arguments as
    launched. -/
theorem run_result : θ_run defs (onTc (τ := τ) (main (F := F))) ⟨m, fun _ => 0, ρ⟩ (fun r => ∀ c : Dev nD,
      r.2.mem ((c.tc : Thread nD τ).loc main_v3) = (dat2 (ent3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (mem4_arr m ρ c 3),
     (h c _ (mem_uc main_arg0 (by decide))).trans (mem4_x m ρ c),
     (h c _ (mem_uc main_arg1 (by decide))).trans (mem4_w m ρ c),
     (h c _ (mem_uc main_arg2 (by decide))).trans (mem4_b m ρ c)⟩) (run_all m ρ)

end Cert.Kernel.Fr

end
-- ==== Proof.KI.Passes.lean ====
/-
  The two preparatory passes, each a grid of whole-row blocks with a pointwise body: the first rewrites every weight
  entry by the three comparisons, the second changes the format of x. For each: what a point's body leaves in the
  output block as a function of the input block, the body's run, and the data the pipeline's launch theorem asks for,
  all stated at the array contents `V` the pass is entered with.
-/
import proofs.«126211_j23691039605071_2_alg».proof.Proof.Gen.KernelIdeal.Launch
import proofs.«126211_j23691039605071_2_alg».proof.Proof.Gen.KernelIdeal.Skeleton
import proofs.«126211_j23691039605071_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Passes

variable (V : (c : Dev nD) → (b : Ref sig .tc) → Buf (Elt F) ((c : Thread nD τ).loc b))

/-! # Pass 0: the weights, 16 blocks of 256 rows

Every point of the grid takes one block of 256 rows of the weights, whole rows, and writes one block of the same rows: the body reads its
input block once and stores one value over the whole output block. -/

/-- The block of window `w` at point `t`, cut out of the array as the pass finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block at every point, for any proof data over the entry contents whose
    body leaves that block in place: the block index moves at every point, and the window is fetched whenever it moves. -/
theorem before0_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The one rectangle the body touches: the whole block. -/
abbrev whole0 : Rect S256x4096 := Rect.unit (s := S256x4096) ![0, 0] S256x4096.size inb_S256x4096_S256x4096_0_0

/-- What the body leaves in the output's staging buffer, from the input block: its one store, of the body's value of the
    block it loaded. -/
def res0 (x0 : Vec F S256x4096 .f32) : Vec F S256x4096 .bf16 :=
  View.canon [⟨whole0, k0_pay1 (View.ld x0 whole0)⟩]

/-- That one store covers the buffer. -/
theorem res0_cover (p0 : Vec F S256x4096 .bf16) (y : S256x4096.Idx) :
    ∃ pc ∈ ([⟨whole0, p0⟩] : List (View.Piece (Elt F) S256x4096 .bf16)), y ∈ pc.1.set :=
  View.cover_of_tiled [⟨whole0, p0⟩] S256x4096.size (by rfl) y

set_option maxHeartbeats 1000000 in
/-- The body on whole staging buffers, the input's at contents `x0` and the output's at anything, runs to the end with the
    input's buffer as it was and the output's at `res0 x0`. -/
theorem body0_run (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (res0 x0)) -∗ K ⟨⟩))
      ⊢ wp frame (wpE (defs₀ (F := F)) Variants.none c none) E (cc0__dequant_weight_kernel i arg1 harg1 arg2 harg2) K := by
  simp only [cc0__dequant_weight_kernel_eq_skeleton]; unfold cc0__dequant_weight_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (res0_cover _)

/-- The proof data of pass 0 on core `c`: the arrays as the pass finds them; after the body at point `t` the input's
    buffer holds its block and the output's `res0` of that block; the invariant is the scoped rest and the generator
    register, untouched; nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => res0 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = blk0 V c 0 t := by dsimp only [dat0]
theorem dat0_after_out (c : Dev nD) (t : Fin cfg0.N) : (dat0 V c).after 1 t = res0 (blk0 V c 0 t) := by dsimp only [dat0]

theorem dat0_before_in (c : Dev nD) (t : Fin cfg0.N) (d) : (dat0 V c).before 0 t d = blk0 V c 0 t :=
  before0_in_of V (dat0 V c) (dat0_A V c 0) (dat0_after_in V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the run applies; the invariant and what the core owes
    pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body0_run c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pass 0, at every point. -/
theorem body0_obligation (c : Dev nD) : BodyObligation (dat0 (F := F) V c) (defs₀ (F := F)) Variants.none () Set.univ := fun t => by
  rw [bigSep_W0, bigSep_W0]
  exact body0_at V c t

/-! # Pass 1: x, 16 blocks of 512 rows

Every point of the grid takes one block of 512 rows of x, whole rows, and writes one block of the same rows: the body reads its
input block once and stores one value over the whole output block. -/

/-- The block of window `w` at point `t`, cut out of the array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the input's block at every point, for any proof data over the entry contents whose
    body leaves that block in place: the block index moves at every point, and the window is fetched whenever it moves. -/
theorem before1_in_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The one rectangle the body touches: the whole block. -/
abbrev whole1 : Rect S512x4096 := Rect.unit (s := S512x4096) ![0, 0] S512x4096.size inb_S512x4096_S512x4096_0_0

/-- What the body leaves in the output's staging buffer, from the input block: its one store, of the body's value of the
    block it loaded. -/
def res1 (x0 : Vec F S512x4096 .f32) : Vec F S512x4096 .bf16 :=
  View.canon [⟨whole1, k1_pay1 (View.ld x0 whole1)⟩]

/-- That one store covers the buffer. -/
theorem res1_cover (p0 : Vec F S512x4096 .bf16) (y : S512x4096.Idx) :
    ∃ pc ∈ ([⟨whole1, p0⟩] : List (View.Piece (Elt F) S512x4096 .bf16)), y ∈ pc.1.set :=
  View.cover_of_tiled [⟨whole1, p0⟩] S512x4096.size (by rfl) y

set_option maxHeartbeats 1000000 in
/-- The body on whole staging buffers, the input's at contents `x0` and the output's at anything, runs to the end with the
    input's buffer as it was and the output's at `res1 x0`. -/
theorem body1_run (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (res1 x0)) -∗ K ⟨⟩))
      ⊢ wp frame (wpE (defs₀ (F := F)) Variants.none c none) E (cc1__cast_x_kernel i arg1 harg1 arg2 harg2) K := by
  simp only [cc1__cast_x_kernel_eq_skeleton]; unfold cc1__cast_x_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (res1_cover _)

/-- The proof data of pass 1 on core `c`: the arrays as the pass finds them; after the body at point `t` the input's
    buffer holds its block and the output's `res1` of that block; the invariant is the scoped rest and the generator
    register, untouched; nothing is owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => res1 (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_in (c : Dev nD) (t : Fin cfg1.N) : (dat1 V c).after 0 t = blk1 V c 0 t := by dsimp only [dat1]
theorem dat1_after_out (c : Dev nD) (t : Fin cfg1.N) : (dat1 V c).after 1 t = res1 (blk1 V c 0 t) := by dsimp only [dat1]

theorem dat1_before_in (c : Dev nD) (t : Fin cfg1.N) (d) : (dat1 V c).before 0 t d = blk1 V c 0 t :=
  before1_in_of V (dat1 V c) (dat1_A V c 0) (dat1_after_in V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the run applies; the invariant and what the core owes
    pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_in]
  rw [show (dat1 V c).Φ t.succ = (dat1 V c).Φ t.castSucc from rfl,
    show (dat1 V c).owesAt () t.succ = (dat1 V c).owesAt () t.castSucc from rfl,
    dat1_after_in, dat1_after_out]
  iintro ⟨HΦ, Ho, ⟨%d0, H0⟩, ⟨%d1, H1⟩⟩
  iapply (body1_run c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pass 1, at every point. -/
theorem body1_obligation (c : Dev nD) : BodyObligation (dat1 (F := F) V c) (defs₀ (F := F)) Variants.none () Set.univ := fun t => by
  rw [bigSep_W1, bigSep_W1]
  exact body1_at V c t

end Passes

end Cert.KernelIdeal.Fr

end
-- ==== Proof.KI.MatmulBase.lean ====
/-
  The product pass, shared facts. Its grid is 8 × 4 × 4: a row block of x (1024 rows), a row block of the quantised weights
  (1024 outputs) and, innermost, one of the four blocks of 1024 contracted inputs. The body clears an accumulator buffer at
  the first inner step, adds the block product at every step and, at the last inner step, stores accumulator plus bias
  into the output block. Here: the two conditions in closed form over the grid, where the output block is left alone,
  the buffers the body is called with, and the input blocks read off the entry contents `V`.
-/
import proofs.«126211_j23691039605071_2_alg».proof.Proof.Gen.KernelIdeal.Launch
import proofs.«126211_j23691039605071_2_alg».proof.Proof.Gen.KernelIdeal.Skeleton
import proofs.«126211_j23691039605071_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "this is the first inner step": the inner coordinate is 0. -/
abbrev first (i : grid2.Coords) : Prop := (Scalar.cmpi .ne (Scalar.extui (Scalar.cmpi .eq (BitVec.ofNat 32 (i 2).val) 0#32)) 0#32) = 1#1
theorem first_iff : ∀ t : Fin cfg2.N, first (grid2.coords t) ↔ t.val % 4 = 0 :=
  (by decide +kernel : ∀ t : Fin grid2.N, first (grid2.coords t) ↔ t.val % 4 = 0)

/-- "this is the last inner step": the inner coordinate is 3. -/
abbrev last (i : grid2.Coords) : Prop := k2_cond2 i = 1#1
theorem last_iff : ∀ t : Fin cfg2.N, last (grid2.coords t) ↔ t.val % 4 = 3 :=
  (by decide +kernel : ∀ t : Fin grid2.N, last (grid2.coords t) ↔ t.val % 4 = 3)

/-! ## Where the windows are live -/

theorem live_x : ∀ t : Fin cfg2.N, cfg2.idle 0 (grid2.coords t) = false := by decide +kernel
theorem live_w : ∀ t : Fin cfg2.N, cfg2.idle 1 (grid2.coords t) = false := by decide +kernel
theorem live_b : ∀ t : Fin cfg2.N, cfg2.idle 2 (grid2.coords t) = false := by decide +kernel
/-- Away from the last inner step the output block is not stored into and not written back. -/
theorem idle_out : ∀ t : Fin cfg2.N, ¬last (grid2.coords t) → cfg2.idle 3 (grid2.coords t) = true := by decide +kernel
theorem noflush_out : ∀ t : Fin cfg2.N, ¬last (grid2.coords t) → (cfg2.win 3).flush t = false := by decide +kernel
/-- At the last inner step it is stored into. -/
theorem live_out : ∀ t : Fin cfg2.N, last (grid2.coords t) → cfg2.idle 3 (grid2.coords t) = false := by decide +kernel

/-! ## The buffers the body is called with -/

abbrev mX (t : Fin cfg2.N) : Memref sig .tc .vmem S1024x1024 .bf16 := win2_0.stage (cfg2.slots t 0)
abbrev hX (t : Fin cfg2.N) : (mX t).IsWhole := hstage2_0 ((cfg2.slots t 0).cast nbuf2_0)
abbrev mW (t : Fin cfg2.N) : Memref sig .tc .vmem S1024x1024 .bf16 := win2_1.stage (cfg2.slots t 1)
abbrev hW (t : Fin cfg2.N) : (mW t).IsWhole := hstage2_1 ((cfg2.slots t 1).cast nbuf2_1)
abbrev mB (t : Fin cfg2.N) : Memref sig .tc .vmem S1x1024 .f32 := win2_2.stage (cfg2.slots t 2)
abbrev hB (t : Fin cfg2.N) : (mB t).IsWhole := hstage2_2 ((cfg2.slots t 2).cast nbuf2_2)
abbrev mO (t : Fin cfg2.N) : Memref sig .tc .vmem S1024x1024 .f32 := win2_3.stage (cfg2.slots t 3)
abbrev hO (t : Fin cfg2.N) : (mO t).IsWhole := hstage2_3 ((cfg2.slots t 3).cast nbuf2_3)
/-- The accumulator: a whole scoped buffer of the pass's own, the same at every point. -/
abbrev mAcc : Memref sig .tc .vmem S1024x1024 .f32 := Memref.whole cc2_scratch0
/-- The views through which the accumulator's and the output block's contents are stated. -/
abbrev vAcc : View sig .tc .vmem S1024x1024 .f32 := mAcc.view
abbrev vOut : View sig .tc .vmem S1024x1024 .f32 := (Memref.whole cc2_stg3_0 : Memref sig .tc .vmem S1024x1024 .f32).view

/-- The class invariant with the accumulator split out as a buffer owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) mAcc fullShare d)) ∗ (∃ r, prngReg c r)) := by
  unfold Pipeline.ΦA; rw [scopedRest2_eq]; simp only [mAcc, owns_whole]; try rfl

section Blocks

variable (V : (c : Dev nD) → (b : Ref sig .tc) → Buf (Elt F) ((c : Thread nD τ).loc b))

/-- The block of window `w` at point `t`, cut out of the array as the pass finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds that input's block at every point, fetched there or not (where it is not fetched
    the block index has not moved), for any proof data over the entry contents whose body leaves the block in place. -/
theorem before2_x_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_w_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_b_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

end Blocks

end Cert.KernelIdeal.Fr

end
-- ==== Proof.KI.MatmulFirst.lean ====
/-
  The product pass at a first inner step: the accumulator, whatever it held, is cleared and then receives the first block
  product; the output block is left as it was.
-/
import proofs.«126211_j23691039605071_2_alg».proof.Proof.KI.MatmulBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator (last first), with the proof that on whole buffers — the three
    inputs at their contents, the output block at contents handed back untouched, the accumulator at anything — the body
    runs to the end with the inputs as they were and the accumulator with those pieces written. -/
noncomputable def runFirst (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i)
    (x0 : Vec F S1024x1024 .bf16) (x1 : Vec F S1024x1024 .bf16) (x2 : Vec F S1x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Fr

end
-- ==== Proof.KI.MatmulMid.lean ====
/-
  The product pass at an inner step that is neither first nor last: the accumulator, holding what the step before left,
  receives one more block product; the output block is left as it was.
-/
import proofs.«126211_j23691039605071_2_alg».proof.Proof.KI.MatmulBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the accumulator, with the proof that on whole buffers — the three inputs at their
    contents, the output block at contents handed back untouched, the accumulator at `xs` — the body runs to the end with the
    inputs as they were and the accumulator with those pieces written. -/
noncomputable def runMid (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i)
    (x0 : Vec F S1024x1024 .bf16) (x1 : Vec F S1024x1024 .bf16) (x2 : Vec F S1x1024 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Fr

end
-- ==== Proof.KI.MatmulLast.lean ====
/-
  The product pass at a last inner step: the accumulator, holding what the step before left, receives the last block
  product, and accumulator plus bias row is stored over the whole output block.
-/
import proofs.«126211_j23691039605071_2_alg».proof.Proof.KI.MatmulBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the accumulator, with the proof that on whole buffers —
    the three inputs at their contents, the output block at anything, the accumulator at `xs` — the body runs to the end with
    the inputs as they were and both with those pieces written. -/
noncomputable def runLast (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i)
    (x0 : Vec F S1024x1024 .bf16) (x1 : Vec F S1024x1024 .bf16) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Fr

end
-- ==== Proof.KI.Matmul.lean ====
/-
  The product pass, point by point. The accumulator is carried from one grid point to the next: after a first inner step
  it holds the first block product over a cleared buffer, after every later step what it held plus that step's block
  product; at a last inner step the output block receives the accumulator plus the bias row. Here: those contents as
  functions of the point's input blocks (`accAt`, `outAt`), the invariant that hands the accumulator from point to point,
  the pipeline's proof data and the body obligation, all at the entry contents `V`.
-/
import proofs.«126211_j23691039605071_2_alg».proof.Proof.KI.MatmulFirst
import proofs.«126211_j23691039605071_2_alg».proof.Proof.KI.MatmulMid
import proofs.«126211_j23691039605071_2_alg».proof.Proof.KI.MatmulLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Points

variable (V : (c : Dev nD) → (b : Ref sig .tc) → Buf (Elt F) ((c : Thread nD τ).loc b))

/-! ## What one point leaves, case by case -/

/-- The accumulator after a first inner step: the run's pieces read back. -/
def accFirst (c : Dev nD) (t : Fin cfg2.N) (h0 : t.val % 4 = 0) (h3 : ¬t.val % 4 = 3) : Vec F S1024x1024 .f32 :=
  vAcc.read (Elt F) (vAcc.writes (Elt F) vAcc.junk (runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).1)
theorem accFirst_cover (c : Dev nD) (t : Fin cfg2.N) (h0 : t.val % 4 = 0) (h3 : ¬t.val % 4 = 3) (y : S1024x1024.Idx) :
    ∃ pc ∈ (runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).1, y ∈ pc.1.set :=
  View.cover_of_tiledL (runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).1 S1024x1024.size (by sl_kernel_rfl) y

/-- The accumulator after a middle step that found it at `xs`. -/
def accMid (c : Dev nD) (t : Fin cfg2.N) (h0 : ¬t.val % 4 = 0) (h3 : ¬t.val % 4 = 3) (xs : Vec F S1024x1024 .f32) : Vec F S1024x1024 .f32 :=
  vAcc.read (Elt F) (vAcc.writes (Elt F) vAcc.junk (runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) xs).1)
theorem accMid_cover (c : Dev nD) (t : Fin cfg2.N) (h0 : ¬t.val % 4 = 0) (h3 : ¬t.val % 4 = 3) (xs : Vec F S1024x1024 .f32) (y : S1024x1024.Idx) :
    ∃ pc ∈ (runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) xs).1, y ∈ pc.1.set :=
  View.cover_of_tiledL (runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) xs).1 S1024x1024.size (by sl_kernel_rfl) y

/-- The accumulator and the output block after a last inner step that found the accumulator at `xs`. -/
def accLast (c : Dev nD) (t : Fin cfg2.N) (h0 : ¬t.val % 4 = 0) (h3 : t.val % 4 = 3) (xs : Vec F S1024x1024 .f32) : Vec F S1024x1024 .f32 :=
  vAcc.read (Elt F) (vAcc.writes (Elt F) vAcc.junk (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).2.1)
theorem accLast_cover (c : Dev nD) (t : Fin cfg2.N) (h0 : ¬t.val % 4 = 0) (h3 : t.val % 4 = 3) (xs : Vec F S1024x1024 .f32) (y : S1024x1024.Idx) :
    ∃ pc ∈ (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).2.1, y ∈ pc.1.set :=
  View.cover_of_tiledL (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).2.1 S1024x1024.size (by sl_kernel_rfl) y
def outLast (c : Dev nD) (t : Fin cfg2.N) (h0 : ¬t.val % 4 = 0) (h3 : t.val % 4 = 3) (xs : Vec F S1024x1024 .f32) : Vec F S1024x1024 .f32 :=
  vOut.read (Elt F) (vOut.writes (Elt F) vOut.junk (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).1)
theorem outLast_cover (c : Dev nD) (t : Fin cfg2.N) (h0 : ¬t.val % 4 = 0) (h3 : t.val % 4 = 3) (xs : Vec F S1024x1024 .f32) (y : S1024x1024.Idx) :
    ∃ pc ∈ (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).1, y ∈ pc.1.set :=
  View.cover_of_tiledL (runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) xs).1 S1024x1024.size (by sl_kernel_rfl) y

/-! ## The accumulation over the grid's points -/

/-- What the accumulator holds after the body at position `n`: cleared and loaded at a first inner step, otherwise what
    position `n - 1` left plus this step's block product. -/
def accAt (c : Dev nD) : (n : ℕ) → n < cfg2.N → Vec F S1024x1024 .f32
  | 0, hn => accFirst V c ⟨0, hn⟩ (Nat.zero_mod _) (show ¬(0 : ℕ) % 4 = 3 by decide)
  | n + 1, hn =>
    if h0 : (n + 1) % 4 = 0 then accFirst V c ⟨n + 1, hn⟩ h0 (show ¬(n + 1) % 4 = 3 by omega)
    else if h3 : (n + 1) % 4 = 3 then accLast V c ⟨n + 1, hn⟩ h0 h3 (accAt c n (Nat.lt_of_succ_lt hn))
    else accMid V c ⟨n + 1, hn⟩ h0 h3 (accAt c n (Nat.lt_of_succ_lt hn))

theorem accAt_first (c : Dev nD) (t : Fin cfg2.N) (h0 : t.val % 4 = 0) (h3 : ¬t.val % 4 = 3) :
    accAt V c t.val t.isLt = accFirst V c t h0 h3 := by
  obtain ⟨n, hn⟩ := t
  cases n with
  | zero => rfl
  | succ n => exact dif_pos h0
theorem accAt_mid (c : Dev nD) (t : Fin cfg2.N) (h0 : ¬t.val % 4 = 0) (h3 : ¬t.val % 4 = 3) :
    accAt V c t.val t.isLt = accMid V c t h0 h3 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem accAt_last (c : Dev nD) (t : Fin cfg2.N) (h0 : ¬t.val % 4 = 0) (h3 : t.val % 4 = 3) :
    accAt V c t.val t.isLt = accLast V c t h0 h3 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- What the output block's buffer holds after the body at point `t`: at a last inner step the stored sum; elsewhere the
    buffer is neither stored into nor written back nor read, and a placeholder stands for it. -/
def outAt (c : Dev nD) (t : Fin cfg2.N) : Vec F S1024x1024 .f32 :=
  if h3 : t.val % 4 = 3 then
    outLast V c t (show ¬t.val % 4 = 0 by omega) h3 (accAt V c (t.val - 1) (Nat.lt_of_le_of_lt (Nat.sub_le _ _) t.isLt))
  else vOut.read (Elt F) vOut.junk

theorem outAt_last (c : Dev nD) (t : Fin cfg2.N) (h0 : ¬t.val % 4 = 0) (h3 : t.val % 4 = 3) :
    outAt V c t = outLast V c t h0 h3 (accAt V c (t.val - 1) (Nat.lt_of_le_of_lt (Nat.sub_le _ _) t.isLt)) := dif_pos h3

/-! ## The invariant between points -/

/-- The scoped buffers of the other two passes, each whole at some contents. -/
abbrev others (c : Dev nD) : sProp 𝕄 :=
  bigSepL [cc0_stg0_0, cc0_stg0_1, cc0_stg1_0, cc0_stg1_1, cc1_stg0_0, cc1_stg0_1, cc1_stg1_0, cc1_stg1_1] fun b =>
    iprop(∃ f : Buf (Elt F) ((c : Thread nD τ).loc b), ((c : Thread nD τ).loc b) ↦{fullShare} f)

/-- The class invariant with the accumulator first, owned at some contents. -/
theorem PhiA2_acc (c : Dev nD) :
    (Pipeline.ΦA spec2 c : sProp 𝕄) = iprop(iprop((∃ d, owns (c : Thread nD τ) mAcc fullShare d) ∗ others c) ∗ (∃ r, prngReg c r)) := by
  unfold Pipeline.ΦA
  rw [Pipeline.scopedRest_eq_of_list spec2 c [cc2_scratch0, cc0_stg0_0, cc0_stg0_1, cc0_stg1_0, cc0_stg1_1, cc1_stg0_0, cc1_stg0_1, cc1_stg1_0, cc1_stg1_1] (by decide) (by decide)]
  simp only [mAcc, owns_whole]; try rfl

/-- Before position `n`: before the first point the class invariant (the accumulator at anything); afterwards the
    accumulator at what the point before left, the other scoped buffers and the generator register as they come. -/
def PhiS (c : Dev nD) : (n : ℕ) → n ≤ cfg2.N → sProp 𝕄
  | 0, _ => Pipeline.ΦA spec2 c
  | n + 1, hn => iprop(iprop(owns (c : Thread nD τ) mAcc fullShare (accAt V c n hn) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) mAcc fullShare (accAt V c n hn) ∗ others c) ∗ (∃ r, prngReg c r)) := rfl
theorem PhiS_pos (c : Dev nD) (n : ℕ) (h : n ≤ cfg2.N) (hz : n ≠ 0) :
    PhiS V c n h = iprop(iprop(owns (c : Thread nD τ) mAcc fullShare (accAt V c (n - 1) (by omega)) ∗ others c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => outAt V c t
  Φ t := PhiS V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_Phi_start (c : Dev nD) (t : Fin cfg2.N) :
    (dat2 V c).Φ t.castSucc = PhiS V c t.val (Nat.le_of_lt t.isLt) := by
  dsimp only [dat2]; simp only [Fin.coe_castSucc]
theorem dat2_after_x (c : Dev nD) (t : Fin cfg2.N) : (dat2 V c).after 0 t = blk2 V c 0 t := by dsimp only [dat2]
theorem dat2_after_w (c : Dev nD) (t : Fin cfg2.N) : (dat2 V c).after 1 t = blk2 V c 1 t := by dsimp only [dat2]
theorem dat2_after_b (c : Dev nD) (t : Fin cfg2.N) : (dat2 V c).after 2 t = blk2 V c 2 t := by dsimp only [dat2]
theorem dat2_after_out (c : Dev nD) (t : Fin cfg2.N) : (dat2 V c).after 3 t = outAt V c t := by dsimp only [dat2]
theorem dat2_before_x (c : Dev nD) (t : Fin cfg2.N) (d) : (dat2 V c).before 0 t d = blk2 V c 0 t :=
  before2_x_of V (dat2 V c) (dat2_A V c 0) (dat2_after_x V c) t d
theorem dat2_before_w (c : Dev nD) (t : Fin cfg2.N) (d) : (dat2 V c).before 1 t d = blk2 V c 1 t :=
  before2_w_of V (dat2 V c) (dat2_A V c 1) (dat2_after_w V c) t d
theorem dat2_before_b (c : Dev nD) (t : Fin cfg2.N) (d) : (dat2 V c).before 2 t d = blk2 V c 2 t :=
  before2_b_of V (dat2 V c) (dat2_A V c 2) (dat2_after_b V c) t d

/-! ## The body obligation -/

def pre2 (c : Dev nD) (t : Fin cfg2.N) : sProp 𝕄 :=
  iprop((dat2 V c).Φ t.castSucc ∗ (dat2 V c).owesAt () t.castSucc
    ∗ (∃ d, owns (c : Thread nD τ) (mX t) fullShare ((dat2 V c).before 0 t d))
    ∗ (∃ d, owns (c : Thread nD τ) (mW t) fullShare ((dat2 V c).before 1 t d))
    ∗ (∃ d, owns (c : Thread nD τ) (mB t) fullShare ((dat2 V c).before 2 t d))
    ∗ (∃ d, owns (c : Thread nD τ) (mO t) fullShare ((dat2 V c).before 3 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position modulo 4 says which case it is in;
    the invariant hands the body the accumulator (at anything at the very first point, otherwise at what the point before
    left) and takes it back at this point's contents; away from a last inner step the output block's buffer passes through
    untouched. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_x, dat2_before_w, dat2_before_b]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (mX t) fullShare ((dat2 V c).after 0 t) from by
        unfold Dat.leavesExact; rw [live_x t], dat2_after_x,
      show (dat2 V c).leavesExact 1 t = owns (c : Thread nD τ) (mW t) fullShare ((dat2 V c).after 1 t) from by
        unfold Dat.leavesExact; rw [live_w t], dat2_after_w,
      show (dat2 V c).leavesExact 2 t = owns (c : Thread nD τ) (mB t) fullShare ((dat2 V c).after 2 t) from by
        unfold Dat.leavesExact; rw [live_b t], dat2_after_b]
  have hN : t.val < 128 := lt_of_lt_of_eq t.isLt (show cfg2.N = 128 from N_2)
  by_cases h0 : t.val % 4 = 0
  · by_cases h3 : t.val % 4 = 3
    · exfalso; omega
    · rw [Dat.leavesExact_idle (dat2 V c) 3 t (idle_out t (fun h => h3 ((last_iff t).mp h))) (noflush_out t (fun h => h3 ((last_iff t).mp h)))]
      rw [accAt_first V c t h0 h3]
      unfold accFirst; (try dsimp only)
      by_cases hz : t.val = 0
      · rw [dat2_Phi_start V c t, PhiS_zero V c _ _ hz, PhiA2_acc]
        iintro ⟨⟨⟨HS, Hr⟩, Hg⟩, Ho, ⟨%d0, H0⟩, ⟨%d1, H1⟩, ⟨%d2, H2⟩, ⟨%d3, H3⟩⟩
        iapply ((runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h3)
            iexact Hr
          iexact Hg
        isplitl [Ho]; · iexact Ho
        isplitl [H0]; · iexact H0
        isplitl [H1]; · iexact H1
        isplitl [H2]; · iexact H2
        iexists _; iexact H3
      · rw [dat2_Phi_start V c t, PhiS_pos V c _ _ hz]
        iintro ⟨⟨⟨HS, Hr⟩, Hg⟩, Ho, ⟨%d0, H0⟩, ⟨%d1, H1⟩, ⟨%d2, H2⟩, ⟨%d3, H3⟩⟩
        iapply ((runFirst c (grid2.coords t) (mX t) (hX t) (mW t) (hW t) (mB t) (hB t) (mO t) (hO t) mAcc (Memref.isWhole_whole _) ((first_iff t).mpr h0) (fun h => h3 ((last_iff t).mp h)) (blk2 V c 0 t) (blk2 V c 1 t) (blk2 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h3)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h3 : t.val % 4 = 3
    · rw [show (dat2 V c).leavesExact 3 t = owns (c : Thread nD τ) (mO t) fullShare ((dat2 V c).after 3 t) from by
        unfold Dat.leavesExact; rw [live_out t ((last_iff t).mpr h3)], dat2_after_out]
      rw [accAt_last V c t h0 h3, outAt_last V c t h0 h3]
      unfold accLast outLast; (try dsimp only)
      rw [dat2_Phi_start V c t, PhiS_pos V c _ _ hz]
      iintro ⟨⟨⟨HS, Hr⟩, Hg⟩, Ho, ⟨%d0, H0⟩, ⟨%d1, H1⟩, ⟨%d2, H2⟩, ⟨%d3, H3⟩⟩
      iapply ((runLast c (grid2.coords t) (mX t) (hX t) (mW t) (hW t) (mB t) (hB t) (mO t) (hO t) mAcc (Memref.isWhole_whole _) (fun h => h0 ((first_iff t).mp h)) ((last_iff t).mpr h3) (blk2 V c 0 t) (blk2 V c 1 t) (blk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (accLast_cover V c t h0 h3 _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t h0 h3 _)
    · rw [Dat.leavesExact_idle (dat2 V c) 3 t (idle_out t (fun h => h3 ((last_iff t).mp h))) (noflush_out t (fun h => h3 ((last_iff t).mp h)))]
      rw [accAt_mid V c t h0 h3]
      unfold accMid; (try dsimp only)
      rw [dat2_Phi_start V c t, PhiS_pos V c _ _ hz]
      iintro ⟨⟨⟨HS, Hr⟩, Hg⟩, Ho, ⟨%d0, H0⟩, ⟨%d1, H1⟩, ⟨%d2, H2⟩, ⟨%d3, H3⟩⟩
      iapply ((runMid c (grid2.coords t) (mX t) (hX t) (mW t) (hW t) (mB t) (hB t) (mO t) (hO t) mAcc (Memref.isWhole_whole _) (fun h => h0 ((first_iff t).mp h)) (fun h => h3 ((last_iff t).mp h)) (blk2 V c 0 t) (blk2 V c 1 t) (blk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (accMid_cover V c t h0 h3 _)
          iexact Hr
        iexact Hg
      isplitl [Ho]; · iexact Ho
      isplitl [H0]; · iexact H0
      isplitl [H1]; · iexact H1
      isplitl [H2]; · iexact H2
      iexists _; iexact H3

/-- The body obligation of the product pass, at every point. -/
theorem body2_obligation (c : Dev nD) : BodyObligation (dat2 (F := F) V c) (defs₀ (F := F)) Variants.none () Set.univ := fun t => by
  rw [bigSep_W2, bigSep_W2]
  exact body2_at V c t

/-- What the launch hands the pass is the invariant before the first point. -/
theorem Phi2_in (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class invariant back: what the accumulator holds is forgotten. -/
theorem Phi2_out (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 128 := N_2; omega), PhiA2_acc]
  iintro ⟨⟨HS, Hr⟩, Hg⟩
  isplitl [HS Hr]
  · isplitl [HS]
    · iexists _; iexact HS
    iexact Hr
  iexact Hg

end Points

end Cert.KernelIdeal.Fr

end
-- ==== Proof.KI.Frame.lean ====
/-
  The whole program as four segments — the weight pass, the x pass, one host reshape of the bias to a row, the product
  pass — run from the launch to the return. The contents of every unscoped buffer at each segment boundary are a fold from
  the launch memory: a pass changes its arrays to what its write-backs leave and nothing else, the host operation writes
  its result. The run ends with every unscoped buffer at the last boundary's contents; the three argument arrays are read
  back through the fold to their launch contents, and the result array is what the product pass leaves.
-/
import proofs.«126211_j23691039605071_2_alg».proof.Proof.KI.Passes
import proofs.«126211_j23691039605071_2_alg».proof.Proof.KI.Matmul

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev mem0 : Dev nD → Valuation τ sig (Elt F) := fun c b => (s₀ m ρ).mem ((c : Dev nD), b)
/-- The same read at the TensorCore's references (what the weight pass is entered with). -/
abbrev ent0 : (c : Dev nD) → (b : Ref sig .tc) → Buf (Elt F) ((c : Thread nD τ).loc b) := fun c b => mem0 m ρ c b

/-- After pass 0: its arrays at what the pipeline leaves (the inputs as entered, the output's write-backs folded), every
    other buffer as entered. -/
def mem1 (c : Dev nD) : Valuation τ sig (Elt F) :=
  Pipeline.withArrays spec0 c (mem0 m ρ c) fun w => (dat0 (ent0 m ρ) c).arrAt w cfg0.N
theorem mem1_arr (c : Dev nD) (w : Fin cfg0.W) :
    mem1 m ρ c (Proc.devRef .tc (Pipeline.arrRef spec0 w)) = (dat0 (ent0 m ρ) c).arrAt w cfg0.N := by
  unfold mem1; exact Pipeline.withArrays_arr spec0 launch0.win.arr_inj c _ _ w
theorem mem1_of_ne (c : Dev nD) (b : Ref sig .tc) (hb : ∀ w, Pipeline.arrRef spec0 w ≠ b) :
    mem1 m ρ c (Proc.devRef .tc b) = mem0 m ρ c (Proc.devRef .tc b) := by
  unfold mem1; exact Pipeline.withArrays_of_ne spec0 c _ _ b hb
/-- The same read at the TensorCore's references. -/
abbrev ent1 : (c : Dev nD) → (b : Ref sig .tc) → Buf (Elt F) ((c : Thread nD τ).loc b) := fun c b => mem1 m ρ c b
theorem left0 (c : Dev nD) (w : Fin cfg0.W) : (dat0 (ent0 m ρ) c).arrAt w cfg0.N = ent1 m ρ c (Pipeline.arrRef spec0 w) :=
  (mem1_arr m ρ c w).symm
theorem kept0 (c : Dev nD) : ∀ b, b ∉ Finset.univ.image (Pipeline.arrRef spec0) → ent1 m ρ c b = ent0 m ρ c b :=
  fun b hb => mem1_of_ne m ρ c b fun w e => hb (Finset.mem_image.mpr ⟨w, Finset.mem_univ _, e⟩)

/-- After pass 1: its arrays at what the pipeline leaves (the inputs as entered, the output's write-backs folded), every
    other buffer as entered. -/
def mem2 (c : Dev nD) : Valuation τ sig (Elt F) :=
  Pipeline.withArrays spec1 c (mem1 m ρ c) fun w => (dat1 (ent1 m ρ) c).arrAt w cfg1.N
theorem mem2_arr (c : Dev nD) (w : Fin cfg1.W) :
    mem2 m ρ c (Proc.devRef .tc (Pipeline.arrRef spec1 w)) = (dat1 (ent1 m ρ) c).arrAt w cfg1.N := by
  unfold mem2; exact Pipeline.withArrays_arr spec1 launch1.win.arr_inj c _ _ w
theorem mem2_of_ne (c : Dev nD) (b : Ref sig .tc) (hb : ∀ w, Pipeline.arrRef spec1 w ≠ b) :
    mem2 m ρ c (Proc.devRef .tc b) = mem1 m ρ c (Proc.devRef .tc b) := by
  unfold mem2; exact Pipeline.withArrays_of_ne spec1 c _ _ b hb
/-- The same read at the TensorCore's references. -/
abbrev ent2 : (c : Dev nD) → (b : Ref sig .tc) → Buf (Elt F) ((c : Thread nD τ).loc b) := fun c b => mem2 m ρ c b
theorem left1 (c : Dev nD) (w : Fin cfg1.W) : (dat1 (ent1 m ρ) c).arrAt w cfg1.N = ent2 m ρ c (Pipeline.arrRef spec1 w) :=
  (mem2_arr m ρ c w).symm
theorem kept1 (c : Dev nD) : ∀ b, b ∉ Finset.univ.image (Pipeline.arrRef spec1) → ent2 m ρ c b = ent1 m ρ c b :=
  fun b hb => mem2_of_ne m ρ c b fun w e => hb (Finset.mem_image.mpr ⟨w, Finset.mem_univ _, e⟩)

/-- After the host reshape of the bias (what the product pass is entered with). -/
abbrev mem3 : Dev nD → Valuation τ sig (Elt F) := fun c => StableHlo.after hostOps2 (mem2 m ρ c)
abbrev ent3 : (c : Dev nD) → (b : Ref sig .tc) → Buf (Elt F) ((c : Thread nD τ).loc b) := fun c b => mem3 m ρ c b

/-- After pass 2: its arrays at what the pipeline leaves (the inputs as entered, the output's write-backs folded), every
    other buffer as entered. -/
def mem4 (c : Dev nD) : Valuation τ sig (Elt F) :=
  Pipeline.withArrays spec2 c (mem3 m ρ c) fun w => (dat2 (ent3 m ρ) c).arrAt w cfg2.N
theorem mem4_arr (c : Dev nD) (w : Fin cfg2.W) :
    mem4 m ρ c (Proc.devRef .tc (Pipeline.arrRef spec2 w)) = (dat2 (ent3 m ρ) c).arrAt w cfg2.N := by
  unfold mem4; exact Pipeline.withArrays_arr spec2 launch2.win.arr_inj c _ _ w
theorem mem4_of_ne (c : Dev nD) (b : Ref sig .tc) (hb : ∀ w, Pipeline.arrRef spec2 w ≠ b) :
    mem4 m ρ c (Proc.devRef .tc b) = mem3 m ρ c (Proc.devRef .tc b) := by
  unfold mem4; exact Pipeline.withArrays_of_ne spec2 c _ _ b hb
/-- The same read at the TensorCore's references. -/
abbrev ent4 : (c : Dev nD) → (b : Ref sig .tc) → Buf (Elt F) ((c : Thread nD τ).loc b) := fun c b => mem4 m ρ c b
theorem left2 (c : Dev nD) (w : Fin cfg2.W) : (dat2 (ent3 m ρ) c).arrAt w cfg2.N = ent4 m ρ c (Pipeline.arrRef spec2 w) :=
  (mem4_arr m ρ c w).symm
theorem kept2 (c : Dev nD) : ∀ b, b ∉ Finset.univ.image (Pipeline.arrRef spec2) → ent4 m ρ c b = ent3 m ρ c b :=
  fun b hb => mem4_of_ne m ρ c b fun w e => hb (Finset.mem_image.mpr ⟨w, Finset.mem_univ _, e⟩)

/-! ## No segment writes an argument -/

theorem reshape_keeps (c : Dev nD) (b : Ref sig .tc) (hb : b ≠ main_v2) :
    mem3 m ρ c (Proc.devRef .tc b) = mem2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- x reaches the end as launched: the x pass reads it through its input window, nothing else touches it. -/
theorem mem4_x (c : Dev nD) : mem4 m ρ c (Proc.devRef .tc main_arg0) = m ((c : Thread nD τ).loc main_arg0) :=
  calc mem4 m ρ c (Proc.devRef .tc main_arg0)
    _ = mem3 m ρ c (Proc.devRef .tc main_arg0) := mem4_of_ne m ρ c main_arg0 (by decide)
    _ = mem2 m ρ c (Proc.devRef .tc main_arg0) := reshape_keeps m ρ c main_arg0 (by decide)
    _ = mem1 m ρ c (Proc.devRef .tc main_arg0) := (mem2_arr m ρ c 0).trans (((dat1 (ent1 m ρ) c).arrAt_in 0 rfl _).trans (dat1_A (ent1 m ρ) c 0))
    _ = mem0 m ρ c (Proc.devRef .tc main_arg0) := mem1_of_ne m ρ c main_arg0 (by decide)
    _ = m ((c : Thread nD τ).loc main_arg0) := rfl
/-- The weights reach the end as launched: the weight pass reads them through its input window. -/
theorem mem4_w (c : Dev nD) : mem4 m ρ c (Proc.devRef .tc main_arg1) = m ((c : Thread nD τ).loc main_arg1) :=
  calc mem4 m ρ c (Proc.devRef .tc main_arg1)
    _ = mem3 m ρ c (Proc.devRef .tc main_arg1) := mem4_of_ne m ρ c main_arg1 (by decide)
    _ = mem2 m ρ c (Proc.devRef .tc main_arg1) := reshape_keeps m ρ c main_arg1 (by decide)
    _ = mem1 m ρ c (Proc.devRef .tc main_arg1) := mem2_of_ne m ρ c main_arg1 (by decide)
    _ = mem0 m ρ c (Proc.devRef .tc main_arg1) := (mem1_arr m ρ c 0).trans (((dat0 (ent0 m ρ) c).arrAt_in 0 rfl _).trans (dat0_A (ent0 m ρ) c 0))
    _ = m ((c : Thread nD τ).loc main_arg1) := rfl
/-- The bias reaches the end as launched: only the host reshape reads it. -/
theorem mem4_b (c : Dev nD) : mem4 m ρ c (Proc.devRef .tc main_arg2) = m ((c : Thread nD τ).loc main_arg2) :=
  calc mem4 m ρ c (Proc.devRef .tc main_arg2)
    _ = mem3 m ρ c (Proc.devRef .tc main_arg2) := mem4_of_ne m ρ c main_arg2 (by decide)
    _ = mem2 m ρ c (Proc.devRef .tc main_arg2) := reshape_keeps m ρ c main_arg2 (by decide)
    _ = mem1 m ρ c (Proc.devRef .tc main_arg2) := mem2_of_ne m ρ c main_arg2 (by decide)
    _ = mem0 m ρ c (Proc.devRef .tc main_arg2) := mem1_of_ne m ρ c main_arg2 (by decide)
    _ = m ((c : Thread nD τ).loc main_arg2) := rfl

/-! ## The proof data family and the thread state -/

/-- No pass has a prefetched table. -/
abbrev noTables : (p : Fin 3) → (pcfgs (F := F) p).Adm := fun p => (cfgs p).toPCfg_adm
/-- Every pass's proof data, each at the contents it is entered with. -/
def pdats : (p : Fin 3) → (c : Dev nD) → Dat τ (Elt F) Unit ℕ (UR sig nD τ) ℕ (Pipeline.pin (pcfgs (F := F)) noTables p) c
  | ⟨0, _⟩ => fun c => dat0 (ent0 m ρ) c
  | ⟨1, _⟩ => fun c => dat1 (ent1 m ρ) c
  | ⟨2, _⟩ => fun c => dat2 (ent3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor
/-- The host reshape as a segment over the unscoped references. -/
abbrev reshapeSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (mem2 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tend (c : Dev nD) : sProp 𝕄 := iprop(StableHlo.held (c : Thread nD τ) (Pipeline.ucRefs τ sig) (mem4 m ρ c) ∗ ∃ r, prngReg c r)

/-! ## The passes as segments -/

-- a library lemma stated over the pinned configuration unifies with the printed one only when unification may unfold
-- plain definitions in a metavariable's type
set_option backward.isDefEq.respectTransparency.types false in
/-- Pass 0 over the thread state: entered with every unscoped buffer at `mem0`, left with them at `mem1`. Its arrays are
    split out of the unscoped buffers and put back at what the write-backs leave; the generator register goes into the
    class invariant and comes out; nothing is owed; the pass has no semaphore of its own. -/
def pass0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (ent0 m ρ) c).loose
  hwaits := Pipeline.hwaits_of_owed_zero _ _ _ _ L lv 0 fun _ _ => rfl
  pre c := iprop(StableHlo.held (c : Thread nD τ) (Pipeline.ucRefs τ sig) (mem0 m ρ c) ∗ R c)
  post c := iprop(StableHlo.held (c : Thread nD τ) (Pipeline.ucRefs τ sig) (mem1 m ρ c) ∗ R c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (ent0 m ρ c) (ent1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 1 over the thread state: entered with every unscoped buffer at `mem1`, left with them at `mem2`. Its arrays are
    split out of the unscoped buffers and put back at what the write-backs leave; the generator register goes into the
    class invariant and comes out; nothing is owed; the pass has no semaphore of its own. -/
def pass1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (ent1 m ρ) c).loose
  hwaits := Pipeline.hwaits_of_owed_zero _ _ _ _ L lv 1 fun _ _ => rfl
  pre c := iprop(StableHlo.held (c : Thread nD τ) (Pipeline.ucRefs τ sig) (mem1 m ρ c) ∗ R c)
  post c := iprop(StableHlo.held (c : Thread nD τ) (Pipeline.ucRefs τ sig) (mem2 m ρ c) ∗ R c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (ent1 m ρ c) (ent2 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 2 over the thread state: entered with every unscoped buffer at `mem3`, left with them at `mem4`. Its arrays are
    split out of the unscoped buffers and put back at what the write-backs leave; the generator register goes into the
    class invariant and comes out; nothing is owed; the pass has no semaphore of its own. -/
def pass2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (ent3 m ρ) c).loose
  hwaits := Pipeline.hwaits_of_owed_zero _ _ _ _ L lv 2 fun _ _ => rfl
  pre c := iprop(StableHlo.held (c : Thread nD τ) (Pipeline.ucRefs τ sig) (mem3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent3 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from Phi2_out (ent3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (ent3 m ρ c) (ent4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ 𝒱₀ L lv) :=
  [ .region (pass0 m ρ),
    .region (pass1 m ρ),
    .host (reshapeSeg m ρ),
    .region (pass2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem4 m ρ c) s')
      isplitl [Hh] <;> iassumption)
    (hQ := fun s h c => h c)

/-- The frame claim: every execution terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (mem4_x m ρ c),
     (h c _ (mem_uc main_arg1 (by decide))).trans (mem4_w m ρ c),
     (h c _ (mem_uc main_arg2 (by decide))).trans (mem4_b m ρ c)⟩) (run_all m ρ)

/-- The run with the result array named: it ends at what the product pass leaves in its output array, the arguments as
    launched. -/
theorem run_result : θ_run defs (onTc (τ := τ) (main (F := F))) ⟨m, fun _ => 0, ρ⟩ (fun r => ∀ c : Dev nD,
      r.2.mem ((c.tc : Thread nD τ).loc main_v3) = (dat2 (ent3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (mem4_arr m ρ c 3),
     (h c _ (mem_uc main_arg0 (by decide))).trans (mem4_x m ρ c),
     (h c _ (mem_uc main_arg1 (by decide))).trans (mem4_w m ρ c),
     (h c _ (mem_uc main_arg2 (by decide))).trans (mem4_b m ρ c)⟩) (run_all m ρ)

end Cert.KernelIdeal.Fr

end
-- ==== Proof.Spec.lean ====
/-
  The function both programs compute, on the extended reals.

  A weight entry `v` is sent to one of three levels or to a linear ramp between them:
  `v > 1/2 ↦ 1`, else `v < -1/2 ↦ -1`, else `|v| < c ↦ 0` (`c` the binary value nearest one tenth), else
  `(v + 1/2) / 1`. The layer is then the affine map `out[p, j] = (∑ k, x[p, k] · quant (w[j, k])) + b[j]`
  over 8192 rows `p`, 4096 outputs `j` and 4096 inputs `k`.
-/
import Idealize.ShloMosaic.PureOps.Ideal
import Idealize.ShloMosaic.Lib.ValueIdx

noncomputable section

namespace Cert.Tern

open Idealize.ShloMosaic Idealize.ShloMosaic.ValueIdx

/-- One weight entry after the three comparisons: a level `1`, `-1` or `0`, or the ramp `(v + 1/2) / 1`. The
    comparisons, the absolute value and the quotient are the extended reals' own; the literals are the binary values
    the two programs share. -/
def quant (v : EReal) : EReal :=
  Scalar.select (FloatOps.cmpf (F := Ideal) (φ := .f32) .ogt v (Ideal.ofBits .f32 0x3F000000#32)) (Ideal.ofBits .f32 0x3F800000#32)
    (Scalar.select (FloatOps.cmpf (F := Ideal) (φ := .f32) .olt v (Ideal.ofBits .f32 0xBF000000#32)) (Ideal.ofBits .f32 0xBF800000#32)
      (Scalar.select (FloatOps.cmpf (F := Ideal) (φ := .f32) .olt (FloatOps.absf (F := Ideal) (φ := .f32) v) (Ideal.ofBits .f32 0x3DCCCCCD#32))
        (Ideal.ofBits .f32 0x00000000#32)
        (Ideal.div (v + Ideal.ofBits .f32 0x3F000000#32) (Ideal.ofBits .f32 0x3F800000#32))))

/-- Entry `(p, j)` of the layer: row `p` of `x` against row `j` of the quantised weights, plus `b[j]`. -/
def entry (x : (⟨2, ![8192, 4096]⟩ : Shape).Idx → EReal) (w : (⟨2, ![4096, 4096]⟩ : Shape).Idx → EReal)
    (b : (⟨1, ![4096]⟩ : Shape).Idx → EReal) (p : Fin 8192) (j : Fin 4096) : EReal :=
  (∑ k : Fin 4096, x (ix2 p k) * quant (w (ix2 j k))) + b (ix1 j)

/-- The whole result array as one function of the three argument arrays. -/
def linear (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b (i 0) (i 1)

theorem linear_ix2 (x : (⟨2, ![8192, 4096]⟩ : Shape).Idx → EReal) (w : (⟨2, ![4096, 4096]⟩ : Shape).Idx → EReal)
    (b : (⟨1, ![4096]⟩ : Shape).Idx → EReal) (p : Fin 8192) (j : Fin 4096) :
    linear x w b (ix2 p j) = entry x w b p j := rfl

end Cert.Tern

end
-- ==== Proof.PayIdx.lean ====
/-
  The kernels' arithmetic, read at an index, on the extended reals.

  Each of the three kernels stores values that are pure functions of the values it loaded. Read at one index these are:
  the three nested selections `quant` of the loaded weight entry (the narrowing to the shorter format is the identity on
  the extended reals); the loaded entry itself; the extended real `0`; the loaded accumulator plus the sum over the
  contracted axis of the products of the two loaded blocks, both contracting their second axis; and the loaded
  accumulator plus the bias row's entry at the same column.
-/
import proofs.«126211_j23691039605071_2_alg».proof.Proof.Gen.KernelIdeal.Skeleton
import proofs.«126211_j23691039605071_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Tern.Pay

open Cert.KernelIdeal Cert.KernelIdeal.Gen Idealize.ShloMosaic Idealize.ShloMosaic.ValueIdx

/-! ## The quantising kernel and the narrowing kernel -/

/-- The stored weight is `quant` of the loaded one: the same three comparisons against the same literals, in the same
    nesting, and the narrowing is the identity. -/
theorem pay0 (v0 : Vec Ideal S256x4096 .f32) (r : Fin 256) (k : Fin 4096) :
    k0_pay1 (F := Ideal) v0 (ix2 r k) = Cert.Tern.quant (v0 (ix2 r k)) := by
  unfold k0_pay1 Cert.Tern.quant
  rfl

/-- The narrowing of an entry is the entry. -/
theorem pay1 (v0 : Vec Ideal S512x4096 .f32) (i : S512x4096.Idx) : k1_pay1 (F := Ideal) v0 i = v0 i := rfl

/-! ## The contraction kernel -/

/-- The accumulator starts at `0`. -/
theorem pay2_zero (i : S1024x1024.Idx) : k2_pay1 (F := Ideal) i = 0 := by
  unfold k2_pay1
  simp only [shapeCast_self]
  exact Ideal.ofBits_zero_f32

/-- The left block of the contraction is read at row `p`, position `k`. -/
theorem lhs_ix2 (p j k : Fin 1024) :
    dot_S1024x1024_S1024x1024_S1024x1024_1_1_0_0_n_n.lhsIdx (ix2 p j)
      ((contrEquiv1 dot_S1024x1024_S1024x1024_S1024x1024_1_1_0_0_n_n 1024 rfl rfl).symm k) = ix2 p k := by
  have hk := contrEquiv1_symm_val dot_S1024x1024_S1024x1024_S1024x1024_1_1_0_0_n_n 1024 rfl rfl k
  refine funext fun a => Fin.ext ?_
  match a with
  | ⟨0, _⟩ =>
    show (dot_S1024x1024_S1024x1024_S1024x1024_1_1_0_0_n_n.lhsIdx (ix2 p j) _ 0).val = p.val
    unfold DotDims.lhsIdx
    rw [dif_neg (show ¬(0 : Fin S1024x1024.rank) ∈ dot_S1024x1024_S1024x1024_S1024x1024_1_1_0_0_n_n.lhsBatch by decide),
      dif_pos (show (0 : Fin S1024x1024.rank) ∈ dot_S1024x1024_S1024x1024_S1024x1024_1_1_0_0_n_n.lhsNonContracting by decide)]
    rfl
  | ⟨1, _⟩ =>
    exact (dot_S1024x1024_S1024x1024_S1024x1024_1_1_0_0_n_n.lhsIdx_val_of_single rfl (ix2 p j) _).trans hk

/-- The right block of the contraction is read at row `j`, position `k`: it too contracts its second axis. -/
theorem rhs_ix2 (p j k : Fin 1024) :
    dot_S1024x1024_S1024x1024_S1024x1024_1_1_0_0_n_n.rhsIdx (ix2 p j)
      ((contrEquiv1 dot_S1024x1024_S1024x1024_S1024x1024_1_1_0_0_n_n 1024 rfl rfl).symm k) = ix2 j k := by
  have hk := contrEquiv1_symm_val dot_S1024x1024_S1024x1024_S1024x1024_1_1_0_0_n_n 1024 rfl rfl k
  refine funext fun a => Fin.ext ?_
  match a with
  | ⟨0, _⟩ =>
    show (dot_S1024x1024_S1024x1024_S1024x1024_1_1_0_0_n_n.rhsIdx (ix2 p j) _ 0).val = j.val
    unfold DotDims.rhsIdx
    rw [dif_neg (show ¬(0 : Fin S1024x1024.rank) ∈ dot_S1024x1024_S1024x1024_S1024x1024_1_1_0_0_n_n.rhsBatch by decide),
      dif_pos (show (0 : Fin S1024x1024.rank) ∈ dot_S1024x1024_S1024x1024_S1024x1024_1_1_0_0_n_n.rhsNonContracting by decide)]
    rfl
  | ⟨1, _⟩ =>
    exact (dot_S1024x1024_S1024x1024_S1024x1024_1_1_0_0_n_n.rhsIdx_val_of_single rfl (ix2 p j) _).trans hk

/-- One step of the accumulation: the loaded accumulator plus the products of row `p` of the left block with row `j` of
    the right block. -/
theorem pay2_acc (v3 : Vec Ideal S1024x1024 .f32) (v4 v6 : Vec Ideal S1024x1024 .bf16) (p j : Fin 1024) :
    k2_pay2 (F := Ideal) v3 v4 v6 (ix2 p j) = v3 (ix2 p j) + ∑ k : Fin 1024, v4 (ix2 p k) * v6 (ix2 j k) := by
  unfold k2_pay2
  simp only [shapeCast_self]
  show v3 (ix2 p j) + FloatOps.matmul (F := Ideal) dot_S1024x1024_S1024x1024_S1024x1024_1_1_0_0_n_n none
    (v4 : FVec Ideal S1024x1024 .bf16) (v6 : FVec Ideal S1024x1024 .bf16)
    (constant (F := Ideal) S1024x1024 .f32 0x00000000#32) (ix2 p j) = _
  refine congrArg (v3 (ix2 p j) + ·) ?_
  rw [Ideal.matmul_constant_zero_apply,
    ← Equiv.sum_comp (contrEquiv1 dot_S1024x1024_S1024x1024_S1024x1024_1_1_0_0_n_n 1024 rfl rfl).symm]
  refine Finset.sum_congr rfl fun k _ => ?_
  rw [lhs_ix2, rhs_ix2]

/-- The last step adds the bias row's entry at the same column. -/
theorem pay2_out (v16 : Vec Ideal S1024x1024 .f32) (v17 : Vec Ideal S1x1024 .f32) (p j : Fin 1024) :
    k2_pay3 (F := Ideal) v16 v17 (ix2 p j) = v16 (ix2 p j) + v17 (ix2 0 j) := by
  unfold k2_pay3
  simp only [shapeCast_self]
  show v16 (ix2 p j) + broadcastTo S1024x1024 v17 _ (ix2 p j) = _
  refine congrArg (v16 (ix2 p j) + ·) ?_
  exact broadcastTo_1b_ab_apply v17 _ p j

end Cert.Tern.Pay

end
-- ==== Proof.PassValues.lean ====
/-
  What the two preparatory passes leave, on the extended reals: the weight pass leaves `quant` of every weight entry, the
  x pass leaves x itself (a change of format is the identity there). Each point writes the block of rows it read, the
  blocks tile the array, so the array after the pass is that one function of the array the pass read.
-/
import proofs.«126211_j23691039605071_2_alg».proof.Proof.KI.Passes
import proofs.«126211_j23691039605071_2_alg».proof.Proof.PayIdx
import Idealize.ShloMosaic.Lib.Pipeline.Value

noncomputable section

namespace Cert.Tern.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## Pass 0 -/

/-- The printed block indices, decided over the grid: point `t` takes and writes rows `256·t … 256·t + 255`, all columns. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the weights with \`quant\` applied to every entry. -/
theorem flushed0 (c : Dev nD) (t : Fin cfg0.N) :
    (dat0 V c).flushed 1 t = ((cfg0.win 1).blk t).view.read (Elt Ideal) (fun i => Cert.Tern.quant (V c main_arg1 i)) := by
  show (cfg0.win 1).cut (grid0.coords t) ((dat0 V c).after 1 t) = _
  rw [dat0_after_out]
  unfold res0
  rw [View.canon_unit_zero hz]
  simp only [View.ld_unit_zero (S := S256x4096) hz]
  obtain ⟨e0, e1, e2, e3⟩ := idx0 t
  funext j
  obtain ⟨r, k, rfl⟩ : ∃ (r : Fin 256) (k : Fin 4096), j = ix2 r k := ⟨j 0, j 1, eq_ix2 j⟩
  refine (Cert.Tern.Pay.pay0 _ r k).trans ?_
  show Cert.Tern.quant (V c main_arg1 (((cfg0.win 0).blk t).view.emb (ix2 r k))) = Cert.Tern.quant (V c main_arg1 (((cfg0.win 1).blk t).view.emb (ix2 r k)))
  generalize ix2 r k = j
  have h : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h]

/-- An index of the output array is in point `t`'s block iff each coordinate is in the block's range on its axis. -/
theorem mem_blk0 (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every index of the output array lies in the block of the point that owns its row. -/
theorem cover0 (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 16 := N_0
  refine ⟨⟨(i 0).val / 256, by rw [hN]; omega⟩, flush0_1 _, ?_⟩
  rw [mem_blk0]
  obtain ⟨e0, e1, e2, e3⟩ := idx0 ⟨(i 0).val / 256, by rw [hN]; omega⟩
  intro a
  match a with
  | ⟨0, _⟩ => show win0_1.index _ (0 : Fin 2) * 256 ≤ (i 0).val ∧ (i 0).val < win0_1.index _ (0 : Fin 2) * 256 + 256; rw [e2]; show (i 0).val / 256 * 256 ≤ (i 0).val ∧ (i 0).val < (i 0).val / 256 * 256 + 256; omega
  | ⟨1, _⟩ => show win0_1.index _ (1 : Fin 2) * 4096 ≤ (i 1).val ∧ (i 1).val < win0_1.index _ (1 : Fin 2) * 4096 + 4096; rw [e3]; omega

/-- The output array after the pass. -/
theorem final0 (c : Dev nD) : (dat0 V c).arrAt 1 cfg0.N = (fun i => Cert.Tern.quant (V c main_arg1 i)) :=
  (dat0 V c).arrAt_eq_of_cover 1 _ (fun t _ => flushed0 V c t) cover0

/-! ## Pass 1 -/

/-- The printed block indices, decided over the grid: point `t` takes and writes rows `512·t … 512·t + 511`, all columns. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of x. -/
theorem flushed1 (c : Dev nD) (t : Fin cfg1.N) :
    (dat1 V c).flushed 1 t = ((cfg1.win 1).blk t).view.read (Elt Ideal) (fun i => V c main_arg0 i) := by
  show (cfg1.win 1).cut (grid1.coords t) ((dat1 V c).after 1 t) = _
  rw [dat1_after_out]
  unfold res1
  rw [View.canon_unit_zero hz]
  simp only [View.ld_unit_zero (S := S512x4096) hz]
  obtain ⟨e0, e1, e2, e3⟩ := idx1 t
  funext j
  refine (Cert.Tern.Pay.pay1 _ j).trans ?_
  show V c main_arg0 (((cfg1.win 0).blk t).view.emb j) = V c main_arg0 (((cfg1.win 1).blk t).view.emb j)
  have h : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h]

/-- An index of the output array is in point `t`'s block iff each coordinate is in the block's range on its axis. -/
theorem mem_blk1 (t : Fin cfg1.N) (i : S8192x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- Every index of the output array lies in the block of the point that owns its row. -/
theorem cover1 (i : S8192x4096.Idx) : ∃ t : Fin cfg1.N, (cfg1.win 1).flush t = true ∧ i ∈ ((cfg1.win 1).blk t).view.set := by
  have hi0 : (i 0).val < 8192 := (i 0).isLt
  have hi1 : (i 1).val < 4096 := (i 1).isLt
  have hN : cfg1.N = 16 := N_1
  refine ⟨⟨(i 0).val / 512, by rw [hN]; omega⟩, flush1_1 _, ?_⟩
  rw [mem_blk1]
  obtain ⟨e0, e1, e2, e3⟩ := idx1 ⟨(i 0).val / 512, by rw [hN]; omega⟩
  intro a
  match a with
  | ⟨0, _⟩ => show win1_1.index _ (0 : Fin 2) * 512 ≤ (i 0).val ∧ (i 0).val < win1_1.index _ (0 : Fin 2) * 512 + 512; rw [e2]; show (i 0).val / 512 * 512 ≤ (i 0).val ∧ (i 0).val < (i 0).val / 512 * 512 + 512; omega
  | ⟨1, _⟩ => show win1_1.index _ (1 : Fin 2) * 4096 ≤ (i 1).val ∧ (i 1).val < win1_1.index _ (1 : Fin 2) * 4096 + 4096; rw [e3]; omega

/-- The output array after the pass. -/
theorem final1 (c : Dev nD) : (dat1 V c).arrAt 1 cfg1.N = (fun i => V c main_arg0 i) :=
  (dat1 V c).arrAt_eq_of_cover 1 _ (fun t _ => flushed1 V c t) cover1

end Cert.Tern.Val

end
-- ==== Proof.KI.MatmulPieces.lean ====
/-
  The product pass, one point at a time, as arithmetic: what each case leaves in the accumulator and in the output block is
  the body's own expression of the point's input blocks and of what the accumulator held — the cleared buffer plus the block
  product at a first inner step, the carried contents plus the block product otherwise, and that sum plus the bias row in the
  output block at a last inner step.
-/
import proofs.«126211_j23691039605071_2_alg».proof.Proof.KI.Matmul
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem accFirst_eq (c : Dev nD) (t : Fin cfg2.N) (h0 : t.val % 4 = 0) (h3 : ¬t.val % 4 = 3) :
    accFirst V c t h0 h3 = k2_pay2 (k2_pay1 (F := F)) (blk2 V c 0 t) (blk2 V c 1 t) := by
  unfold accFirst
  rw [View.read_writes_eq_canon _ _ _ (accFirst_cover V c t h0 h3)]
  unfold runFirst
  dsimp only
  try sl_unfold_words
  rw [View.canon_cons_unit_zero hz]
  rw [View.readCov_unit_zero (S := S1024x1024) _ hz]
  simp only [View.readAt_eq_ld, (hX t).read_unread, (hW t).read_unread, View.ld_unit_zero (S := S1024x1024) hz]

theorem accMid_eq (c : Dev nD) (t : Fin cfg2.N) (h0 : ¬t.val % 4 = 0) (h3 : ¬t.val % 4 = 3) (xs : Vec F S1024x1024 .f32) :
    accMid V c t h0 h3 xs = k2_pay2 xs (blk2 V c 0 t) (blk2 V c 1 t) := by
  unfold accMid
  rw [View.read_writes_eq_canon _ _ _ (accMid_cover V c t h0 h3 xs)]
  unfold runMid
  dsimp only
  try sl_unfold_words
  rw [View.canon_unit_zero hz]
  simp only [View.readAt_eq_ld, (hX t).read_unread, (hW t).read_unread, (Memref.isWhole_whole cc2_scratch0).read_unread, View.ld_unit_zero (S := S1024x1024) hz]

theorem accLast_eq (c : Dev nD) (t : Fin cfg2.N) (h0 : ¬t.val % 4 = 0) (h3 : t.val % 4 = 3) (xs : Vec F S1024x1024 .f32) :
    accLast V c t h0 h3 xs = k2_pay2 xs (blk2 V c 0 t) (blk2 V c 1 t) := by
  unfold accLast
  rw [View.read_writes_eq_canon _ _ _ (accLast_cover V c t h0 h3 xs)]
  unfold runLast
  dsimp only
  try sl_unfold_words
  rw [View.canon_unit_zero hz]
  simp only [View.readAt_eq_ld, (hX t).read_unread, (hW t).read_unread, (Memref.isWhole_whole cc2_scratch0).read_unread, View.ld_unit_zero (S := S1024x1024) hz]

theorem outLast_eq (c : Dev nD) (t : Fin cfg2.N) (h0 : ¬t.val % 4 = 0) (h3 : t.val % 4 = 3) (xs : Vec F S1024x1024 .f32) :
    outLast V c t h0 h3 xs = k2_pay3 (k2_pay2 xs (blk2 V c 0 t) (blk2 V c 1 t)) (blk2 V c 2 t) := by
  unfold outLast
  rw [View.read_writes_eq_canon _ _ _ (outLast_cover V c t h0 h3 xs)]
  unfold runLast
  dsimp only
  try sl_unfold_words
  rw [View.canon_unit_zero hz, View.readCov_unit_zero (S := S1024x1024) _ hz]
  simp only [View.readAt_eq_ld, (hX t).read_unread, (hW t).read_unread, (hB t).read_unread, (Memref.isWhole_whole cc2_scratch0).read_unread, View.ld_unit_zero (S := S1024x1024) hz, View.ld_unit_zero (S := S1x1024) hz]

end Cert.KernelIdeal.Fr

end
-- ==== Proof.LibBlockSum.lean ====
/-
  Two general facts used to put a blocked contraction back together.

  A sum over nb · bs consecutive naturals is the sum, over the nb blocks, of the bs terms of each block; stated with
  the terms of a block indexed by Fin bs and the whole range by Fin (nb · bs), as matrix products come. And a
  rank-2 array extended by zero to all pairs of naturals, so that offsets computed in ℕ need no bound proofs while
  they are being rearranged: inside the extents the extension is the array.
-/
import Mathlib.Algebra.BigOperators.Fin
import Mathlib.Algebra.BigOperators.Intervals
import Idealize.ShloMosaic.Lib.ValueIdx

noncomputable section

open scoped BigOperators

namespace Cert.LibBlockSum

open Idealize.ShloMosaic Idealize.ShloMosaic.ValueIdx

/-- Block by block over ranges: Σ_{s < nb} Σ_{kk < bs} g (bs · s + kk) = Σ_{k < nb · bs} g k. -/
theorem sum_range_blocks {β : Type*} [AddCommMonoid β] (g : ℕ → β) (bs : ℕ) :
    ∀ nb : ℕ, ∑ s ∈ Finset.range nb, ∑ kk ∈ Finset.range bs, g (bs * s + kk) = ∑ k ∈ Finset.range (nb * bs), g k
  | 0 => by simp
  | nb + 1 => by
    rw [Finset.sum_range_succ, sum_range_blocks g bs nb, Nat.succ_mul, Finset.sum_range_add, Nat.mul_comm bs nb]

/-- The same with each block's terms indexed by Fin bs and the whole by Fin (nb · bs). -/
theorem sum_fin_blocks {β : Type*} [AddCommMonoid β] (g : ℕ → β) (nb bs : ℕ) :
    ∑ s ∈ Finset.range nb, ∑ kk : Fin bs, g (bs * s + kk.val) = ∑ k : Fin (nb * bs), g k.val := by
  rw [Fin.sum_univ_eq_sum_range g (nb * bs), ← sum_range_blocks g bs nb]
  exact Finset.sum_congr rfl fun s _ => Fin.sum_univ_eq_sum_range (fun kk => g (bs * s + kk)) bs

/-- The same with the total count named: n = nb · bs. -/
theorem sum_fin_blocks_eq {β : Type*} [AddCommMonoid β] (g : ℕ → β) (nb bs n : ℕ) (hn : nb * bs = n) :
    ∑ s ∈ Finset.range nb, ∑ kk : Fin bs, g (bs * s + kk.val) = ∑ k : Fin n, g k.val := by
  subst hn
  exact sum_fin_blocks g nb bs

/-- A rank-2 array extended by zero to all of ℕ × ℕ. -/
def ext2 {α : Type*} [Zero α] {n0 n1 : ℕ} (A : (⟨2, ![n0, n1]⟩ : Shape).Idx → α) (r k : ℕ) : α :=
  if h : r < n0 ∧ k < n1 then A (ix2 ⟨r, h.1⟩ ⟨k, h.2⟩) else 0

/-- Inside the extents the extension is the array. -/
theorem ext2_of_lt {α : Type*} [Zero α] {n0 n1 : ℕ} (A : (⟨2, ![n0, n1]⟩ : Shape).Idx → α) {r k : ℕ}
    (hr : r < n0) (hk : k < n1) : ext2 A r k = A (ix2 ⟨r, hr⟩ ⟨k, hk⟩) := dif_pos ⟨hr, hk⟩

/-- At the coordinates of an index the extension is the array at that index. -/
theorem ext2_ix {α : Type*} [Zero α] {n0 n1 : ℕ} (A : (⟨2, ![n0, n1]⟩ : Shape).Idx → α) (p : Fin n0) (k : Fin n1) :
    ext2 A p.val k.val = A (ix2 p k) := ext2_of_lt A p.isLt k.isLt

end Cert.LibBlockSum

end
-- ==== Proof.MatmulValue.lean ====
/-
  What the product pass leaves in the result array, on the extended reals. The accumulator after the inner step `s` of an
  output block holds the sum of the block products of the inner steps `0 … s`; a sum over four consecutive blocks of 1024
  inputs is the sum over all 4096 inputs, in any grouping, because addition of extended reals is commutative and associative;
  so the block written back at a last inner step is, entry by entry, the full row-by-row product plus the bias entry, and the
  write-backs tile the result array.
-/
import proofs.«126211_j23691039605071_2_alg».proof.Proof.KI.MatmulPieces
import proofs.«126211_j23691039605071_2_alg».proof.Proof.PayIdx
import proofs.«126211_j23691039605071_2_alg».proof.Proof.LibBlockSum
import Idealize.ShloMosaic.Lib.Pipeline.Value

noncomputable section

namespace Cert.Tern.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

open Cert.LibBlockSum

variable (V : (c : Dev nD) → (b : Ref sig .tc) → Buf (Elt Ideal) ((c : Thread nD τ).loc b))

/-- The printed block indices, decided over the grid of 128 points `t = 16·i + 4·j + s`: x's block is (i, s), the weights'
    (j, s), the bias row's (0, j), the result's (i, j). -/
theorem idx2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

/-! ## The input blocks as entries of the arrays -/

/-- The three arrays the pass reads, as it finds them: x, the quantised weights, the bias row. -/
abbrev Xa (c : Dev nD) : (⟨2, ![8192, 4096]⟩ : Shape).Idx → EReal := V c main_v1
abbrev Wa (c : Dev nD) : (⟨2, ![4096, 4096]⟩ : Shape).Idx → EReal := V c main_v0
abbrev Ba (c : Dev nD) : (⟨2, ![1, 4096]⟩ : Shape).Idx → EReal := V c main_v2

theorem x_blk (c : Dev nD) (t : Fin cfg2.N) (p kk : Fin 1024) :
    (blk2 V c 0 t : Vec Ideal S1024x1024 .bf16) (ix2 p kk)
      = ext2 (Xa V c) (1024 * (t.val / 16) + p.val) (1024 * (t.val % 4) + kk.val) := by
  obtain ⟨e0, e1, -⟩ := idx2 t
  have hN : t.val < 128 := lt_of_lt_of_eq t.isLt N_2
  rw [ext2_of_lt _ (by omega) (by omega)]
  unfold blk2
  rw [View.read_apply]
  show V c main_v1 _ = V c main_v1 _
  refine congrArg (V c main_v1) ?_
  funext a; apply Fin.ext
  match a with
  | ⟨0, _⟩ => show win2_0.index t (0 : Fin 2) * 1024 + 1 * p.val = 1024 * (t.val / 16) + p.val; rw [e0]; omega
  | ⟨1, _⟩ => show win2_0.index t (1 : Fin 2) * 1024 + 1 * kk.val = 1024 * (t.val % 4) + kk.val; rw [e1]; omega

theorem w_blk (c : Dev nD) (t : Fin cfg2.N) (q kk : Fin 1024) :
    (blk2 V c 1 t : Vec Ideal S1024x1024 .bf16) (ix2 q kk)
      = ext2 (Wa V c) (1024 * (t.val / 4 % 4) + q.val) (1024 * (t.val % 4) + kk.val) := by
  obtain ⟨-, -, e2, e3, -⟩ := idx2 t
  have hN : t.val < 128 := lt_of_lt_of_eq t.isLt N_2
  rw [ext2_of_lt _ (by omega) (by omega)]
  unfold blk2
  rw [View.read_apply]
  show V c main_v0 _ = V c main_v0 _
  refine congrArg (V c main_v0) ?_
  funext a; apply Fin.ext
  match a with
  | ⟨0, _⟩ => show win2_1.index t (0 : Fin 2) * 1024 + 1 * q.val = 1024 * (t.val / 4 % 4) + q.val; rw [e2]; omega
  | ⟨1, _⟩ => show win2_1.index t (1 : Fin 2) * 1024 + 1 * kk.val = 1024 * (t.val % 4) + kk.val; rw [e3]; omega

theorem b_blk (c : Dev nD) (t : Fin cfg2.N) (q : Fin 1024) :
    (blk2 V c 2 t : Vec Ideal S1x1024 .f32) (ix2 0 q)
      = ext2 (Ba V c) 0 (1024 * (t.val / 4 % 4) + q.val) := by
  obtain ⟨-, -, -, -, e4, e5, -⟩ := idx2 t
  have hN : t.val < 128 := lt_of_lt_of_eq t.isLt N_2
  rw [ext2_of_lt _ (by omega) (by omega)]
  unfold blk2
  rw [View.read_apply]
  show V c main_v2 _ = V c main_v2 _
  refine congrArg (V c main_v2) ?_
  funext a; apply Fin.ext
  match a with
  | ⟨0, _⟩ => show win2_2.index t (0 : Fin 2) * 1 + 1 * 0 = 0; rw [e4]
  | ⟨1, _⟩ => show win2_2.index t (1 : Fin 2) * 1024 + 1 * q.val = 1024 * (t.val / 4 % 4) + q.val; rw [e5]; omega

/-! ## The accumulator after each point -/

/-- The block products of the inner steps up to the one of position `n`, at entry (p, q) of the output block of `n`. -/
def part (X : (⟨2, ![8192, 4096]⟩ : Shape).Idx → EReal) (Wq : (⟨2, ![4096, 4096]⟩ : Shape).Idx → EReal) (n : ℕ) (p q : Fin 1024) : EReal :=
  ∑ s ∈ Finset.range (n % 4 + 1), ∑ kk : Fin 1024,
    ext2 X (1024 * (n / 16) + p.val) (1024 * s + kk.val) * ext2 Wq (1024 * (n / 4 % 4) + q.val) (1024 * s + kk.val)

theorem acc_eq (c : Dev nD) (p q : Fin 1024) : ∀ (n : ℕ) (hn : n < cfg2.N),
    accAt V c n hn (ix2 p q) = part (Xa V c) (Wa V c) n p q := by
  intro n
  induction n using Nat.strong_induction_on with
  | _ n ih =>
    intro hn
    have hN : n < 128 := lt_of_lt_of_eq hn N_2
    by_cases h0 : n % 4 = 0
    · have h3 : ¬n % 4 = 3 := by omega
      have e1 : accAt V c n hn = k2_pay2 (k2_pay1 (F := Ideal)) (blk2 V c 0 ⟨n, hn⟩) (blk2 V c 1 ⟨n, hn⟩) :=
        (accAt_first V c ⟨n, hn⟩ h0 h3).trans (accFirst_eq V c ⟨n, hn⟩ h0 h3)
      refine (congrFun e1 (ix2 p q)).trans ?_
      refine (Cert.Tern.Pay.pay2_acc _ _ _ p q).trans ?_
      rw [Cert.Tern.Pay.pay2_zero, zero_add]
      unfold part
      rw [h0, Finset.sum_range_one]
      refine Finset.sum_congr rfl fun kk _ => ?_
      rw [x_blk, w_blk]
      show ext2 _ (1024 * (n / 16) + p.val) (1024 * (n % 4) + kk.val) * ext2 _ (1024 * (n / 4 % 4) + q.val) (1024 * (n % 4) + kk.val) = _
      rw [h0]
    · have e1 : accAt V c n hn = k2_pay2 (accAt V c (n - 1) (Nat.lt_of_le_of_lt (Nat.sub_le _ _) hn)) (blk2 V c 0 ⟨n, hn⟩) (blk2 V c 1 ⟨n, hn⟩) := by
        by_cases h3 : n % 4 = 3
        · exact (accAt_last V c ⟨n, hn⟩ h0 h3).trans (accLast_eq V c ⟨n, hn⟩ h0 h3 _)
        · exact (accAt_mid V c ⟨n, hn⟩ h0 h3).trans (accMid_eq V c ⟨n, hn⟩ h0 h3 _)
      refine (congrFun e1 (ix2 p q)).trans ?_
      refine (Cert.Tern.Pay.pay2_acc _ _ _ p q).trans ?_
      rw [ih (n - 1) (by omega) _]
      unfold part
      rw [show (n - 1) % 4 + 1 = n % 4 from by omega, show (n - 1) / 16 = n / 16 from by omega,
        show (n - 1) / 4 % 4 = n / 4 % 4 from by omega, Finset.sum_range_succ]
      refine congrArg _ ?_
      refine Finset.sum_congr rfl fun kk _ => ?_
      rw [x_blk, w_blk]

/-! ## The block a last inner step writes back -/

theorem out_eq (c : Dev nD) (t : Fin cfg2.N) (h3 : t.val % 4 = 3) (p q : Fin 1024) :
    outAt V c t (ix2 p q)
      = (∑ k : Fin 4096, ext2 (Xa V c) (1024 * (t.val / 16) + p.val) k.val
            * ext2 (Wa V c) (1024 * (t.val / 4 % 4) + q.val) k.val)
        + ext2 (Ba V c) 0 (1024 * (t.val / 4 % 4) + q.val) := by
  have h0 : ¬t.val % 4 = 0 := by omega
  have e : outAt V c t = k2_pay3 (accAt V c t.val t.isLt) (blk2 V c 2 t) := by
    rw [outAt_last V c t h0 h3, outLast_eq, accAt_last V c t h0 h3, accLast_eq]
  refine (congrFun e (ix2 p q)).trans ?_
  refine (Cert.Tern.Pay.pay2_out _ _ p q).trans ?_
  rw [acc_eq V c p q t.val t.isLt, b_blk]
  refine congrArg (· + _) ?_
  unfold part
  rw [h3]
  exact sum_fin_blocks_eq (fun k => ext2 (Xa V c) (1024 * (t.val / 16) + p.val) k
    * ext2 (Wa V c) (1024 * (t.val / 4 % 4) + q.val) k) 4 1024 4096 rfl

/-! ## The result array -/

/-- Entry (r, j) of rows of `X` against rows of `Wq`, plus entry j of the bias row. -/
def prodEntry (X : (⟨2, ![8192, 4096]⟩ : Shape).Idx → EReal) (Wq : (⟨2, ![4096, 4096]⟩ : Shape).Idx → EReal)
    (B : (⟨2, ![1, 4096]⟩ : Shape).Idx → EReal) (r : Fin 8192) (j : Fin 4096) : EReal :=
  (∑ k : Fin 4096, X (ix2 r k) * Wq (ix2 j k)) + B (ix2 0 j)

def prodArr (X : (⟨2, ![8192, 4096]⟩ : Shape).Idx → EReal) (Wq : (⟨2, ![4096, 4096]⟩ : Shape).Idx → EReal)
    (B : (⟨2, ![1, 4096]⟩ : Shape).Idx → EReal) : (⟨2, ![8192, 4096]⟩ : Shape).Idx → EReal :=
  fun i => prodEntry X Wq B (i 0) (i 1)

/-- What a last inner step writes back is its block of `prodArr` of the arrays the pass found. -/
theorem flushed3 (c : Dev nD) (t : Fin cfg2.N) (hf : (cfg2.win 3).flush t = true) :
    (dat2 V c).flushed 3 t = ((cfg2.win 3).blk t).view.read (Elt Ideal) (prodArr (Xa V c) (Wa V c) (Ba V c)) := by
  have h3 : t.val % 4 = 3 := (flush2_3 t).mp hf
  have hN : t.val < 128 := lt_of_lt_of_eq t.isLt N_2
  obtain ⟨-, -, -, -, -, -, e6, e7⟩ := idx2 t
  show (cfg2.win 3).cut (grid2.coords t) ((dat2 V c).after 3 t) = _
  rw [dat2_after_out]
  funext j
  obtain ⟨p, q, rfl⟩ : ∃ (p q : Fin 1024), j = ix2 p q := ⟨j 0, j 1, eq_ix2 j⟩
  show outAt V c t (ix2 p q) = prodArr _ _ _ (((cfg2.win 3).blk t).view.emb (ix2 p q))
  rw [out_eq V c t h3 p q]
  have hr : 1024 * (t.val / 16) + p.val < 8192 := by omega
  have hj : 1024 * (t.val / 4 % 4) + q.val < 4096 := by omega
  have hk : ((cfg2.win 3).blk t).view.emb (ix2 p q) = ix2 (⟨1024 * (t.val / 16) + p.val, hr⟩ : Fin 8192) (⟨1024 * (t.val / 4 % 4) + q.val, hj⟩ : Fin 4096) := by
    funext a; apply Fin.ext
    match a with
    | ⟨0, _⟩ => show win2_3.index t (0 : Fin 2) * 1024 + 1 * p.val = 1024 * (t.val / 16) + p.val; rw [e6]; omega
    | ⟨1, _⟩ => show win2_3.index t (1 : Fin 2) * 1024 + 1 * q.val = 1024 * (t.val / 4 % 4) + q.val; rw [e7]; omega
  rw [hk]
  show _ = prodEntry _ _ _ ⟨1024 * (t.val / 16) + p.val, hr⟩ ⟨1024 * (t.val / 4 % 4) + q.val, hj⟩
  unfold prodEntry
  refine congrArg₂ (· + ·) (Finset.sum_congr rfl fun k _ => ?_) ?_
  · rw [ext2_of_lt (Xa V c) hr k.isLt, ext2_of_lt (Wa V c) hj k.isLt]
  · exact ext2_of_lt (Ba V c) (show 0 < 1 by decide) hj

theorem mem_blk3 (t : Fin cfg2.N) (i : S8192x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v3).slice (win2_3.rect t)).set ↔ _
  rw [View.set_slice_whole, Rect.mem_set_unit]
  exact Iff.rfl

/-- Every entry of the result array lies in the block some last inner step writes back. -/
theorem cover3 (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 128 := N_2
  have ht : 16 * ((i 0).val / 1024) + 4 * ((i 1).val / 1024) + 3 < cfg2.N := by rw [hN]; omega
  refine ⟨⟨16 * ((i 0).val / 1024) + 4 * ((i 1).val / 1024) + 3, ht⟩, (flush2_3 _).mpr (by show (16 * ((i 0).val / 1024) + 4 * ((i 1).val / 1024) + 3) % 4 = 3; omega), ?_⟩
  rw [mem_blk3]
  obtain ⟨-, -, -, -, -, -, e6, e7⟩ := idx2 ⟨16 * ((i 0).val / 1024) + 4 * ((i 1).val / 1024) + 3, ht⟩
  intro a
  match a with
  | ⟨0, _⟩ => show win2_3.index _ (0 : Fin 2) * 1024 ≤ (i 0).val ∧ (i 0).val < win2_3.index _ (0 : Fin 2) * 1024 + 1024; rw [e6]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ => show win2_3.index _ (1 : Fin 2) * 1024 ≤ (i 1).val ∧ (i 1).val < win2_3.index _ (1 : Fin 2) * 1024 + 1024; rw [e7]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

/-- The result array after the product pass. -/
theorem final3 (c : Dev nD) : (dat2 V c).arrAt 3 cfg2.N = prodArr (Xa V c) (Wa V c) (Ba V c) :=
  (dat2 V c).arrAt_eq_of_cover 3 _ (flushed3 V c) cover3

end Cert.Tern.Val

end
-- ==== Proof.Result.lean ====
/-
  The kernel's result array as the specification. The product pass is entered with x (the x pass leaves x itself), with
  `quant` of the weights (what the weight pass leaves) and with the bias as a row (the host reshape); so what it leaves,
  rows of the first against rows of the second plus the bias row, is `linear` of the three argument arrays.
-/
import proofs.«126211_j23691039605071_2_alg».proof.Proof.KI.Frame
import proofs.«126211_j23691039605071_2_alg».proof.Proof.PassValues
import proofs.«126211_j23691039605071_2_alg».proof.Proof.MatmulValue
import proofs.«126211_j23691039605071_2_alg».proof.Proof.Spec
import Idealize.ShloMosaic.Lib.ValueLayout
import Idealize.ShloMosaic.Lib.StableHlo.Run

noncomputable section

namespace Cert.Tern.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The product pass finds x in its first operand. -/
theorem ent_x (c : Dev nD) : (ent3 m ρ c main_v1 : S8192x4096.Idx → EReal) = fun i => m ((c : Thread nD τ).loc main_arg0) i :=
  calc (ent3 m ρ c main_v1 : S8192x4096.Idx → EReal)
    _ = mem2 m ρ c (Proc.devRef .tc main_v1) := reshape_keeps m ρ c main_v1 (by decide)
    _ = (dat1 (ent1 m ρ) c).arrAt 1 cfg1.N := mem2_arr m ρ c 1
    _ = (fun i => ent1 m ρ c main_arg0 i) := final1 (ent1 m ρ) c
    _ = fun i => m ((c : Thread nD τ).loc main_arg0) i := by
      have e : ent1 m ρ c main_arg0 = m ((c : Thread nD τ).loc main_arg0) := (mem1_of_ne m ρ c main_arg0 (by decide)).trans rfl
      rw [e]

/-- It finds the quantised weights in its second operand. -/
theorem ent_w (c : Dev nD) : (ent3 m ρ c main_v0 : S4096x4096.Idx → EReal) = fun i => Cert.Tern.quant (m ((c : Thread nD τ).loc main_arg1) i) :=
  calc (ent3 m ρ c main_v0 : S4096x4096.Idx → EReal)
    _ = mem2 m ρ c (Proc.devRef .tc main_v0) := reshape_keeps m ρ c main_v0 (by decide)
    _ = mem1 m ρ c (Proc.devRef .tc main_v0) := mem2_of_ne m ρ c main_v0 (by decide)
    _ = (dat0 (ent0 m ρ) c).arrAt 1 cfg0.N := mem1_arr m ρ c 1
    _ = (fun i => Cert.Tern.quant (ent0 m ρ c main_arg1 i)) := final0 (ent0 m ρ) c
    _ = fun i => Cert.Tern.quant (m ((c : Thread nD τ).loc main_arg1) i) := rfl

/-- It finds the bias, as one row, in its third operand. -/
theorem ent_b (c : Dev nD) : (ent3 m ρ c main_v2 : S1x4096.Idx → EReal)
    = shapeCast S1x4096 (m ((c : Thread nD τ).loc main_arg2) : S4096.Idx → EReal) shapeCasts_S4096_S1x4096 := by
  have e : mem2 m ρ c (Proc.devRef .tc main_arg2) = m ((c : Thread nD τ).loc main_arg2) :=
    (mem2_of_ne m ρ c main_arg2 (by decide)).trans ((mem1_of_ne m ρ c main_arg2 (by decide)).trans rfl)
  show StableHlo.after hostOps2 (mem2 m ρ c) (Proc.devRef .tc main_v2) = _
  rw [← e]
  after_results
  rfl

/-- The result array after the run is the specification of the argument arrays. -/
theorem result_eq (c : Dev nD) : (dat2 (ent3 m ρ) c).arrAt 3 cfg2.N
    = Cert.Tern.linear (m ((c : Thread nD τ).loc main_arg0)) (m ((c : Thread nD τ).loc main_arg1)) (m ((c : Thread nD τ).loc main_arg2)) := by
  rw [final3 (ent3 m ρ) c]
  funext i
  obtain ⟨r, j, rfl⟩ : ∃ (r : Fin 8192) (j : Fin 4096), i = ix2 r j := ⟨i 0, i 1, eq_ix2 i⟩
  show prodEntry (ent3 m ρ c main_v1) (ent3 m ρ c main_v0) (ent3 m ρ c main_v2) r j = Cert.Tern.entry _ _ _ r j
  unfold prodEntry Cert.Tern.entry
  refine congrArg₂ (· + ·) (Finset.sum_congr rfl fun k _ => ?_) ?_
  · rw [congrFun (ent_x m ρ c) (ix2 r k), congrFun (ent_w m ρ c) (ix2 j k)]
  · rw [congrFun (ent_b m ρ c) (ix2 0 j)]
    exact shapeCast_a_1a_apply _ _ 0 j

/-- Every execution of the idealized kernel terminates with the result array at the specification and the arguments as
    launched. -/
theorem kernel_run : θ_run defs (onTc (τ := τ) (main (F := Ideal))) ⟨m, fun _ => 0, ρ⟩ (fun r => ∀ c : Dev nD,
      r.2.mem ((c.tc : Thread nD τ).loc main_v3)
        = Cert.Tern.linear (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_result m ρ)

end Cert.Tern.Val

end
-- ==== Proof.RefValue.lean ====
/-
  The reference program computes the specification.

  Read at an index `(p, j)`, the reference's last stage is the sum of a contraction and a broadcast row. The
  contraction pairs row `p` of the first argument with column `j` of a transposed array, that is, with row `j` of the
  array of quantised weights; the quantised weight at an index is three nested selections on comparisons of the weight
  entry with the shared literals, which is `quant` of that entry term for term. The broadcast row at `(p, j)` is the
  bias at `j`.
-/
import proofs.«126211_j23691039605071_2_alg».proof.Proof.Gen.ReferenceIdeal.Read
import proofs.«126211_j23691039605071_2_alg».proof.Proof.Spec

noncomputable section

namespace Cert.Tern.Ref

open Cert.ReferenceIdeal Cert.ReferenceIdeal.Gen Cert.ReferenceIdeal.Read Idealize.ShloMosaic Idealize.ShloMosaic.ValueIdx

/-! ## The index functions of the layout stages, at coordinates -/

/-- The left operand of the contraction is read at row `p`, position `k`. -/
theorem lidx_ix2 (p : Fin 8192) (j k : Fin 4096) : lidx_main_v15 (ix2 p j) k = ix2 p k := by
  funext a
  match a with
  | ⟨0, _⟩ => rfl
  | ⟨1, _⟩ => rfl

/-- The right operand of the contraction is read at position `k`, column `j`. -/
theorem ridx_ix2 (p : Fin 8192) (j k : Fin 4096) : ridx_main_v15 (ix2 p j) k = ix2 k j := by
  funext a
  match a with
  | ⟨0, _⟩ => rfl
  | ⟨1, _⟩ => rfl

/-- The transposition exchanges the two coordinates. -/
theorem tidx_ix2 (k j : Fin 4096) : idx_main_v14 (ix2 k j) = ix2 j k := by
  funext a
  match a with
  | ⟨0, _⟩ => rfl
  | ⟨1, _⟩ => rfl

/-- The row broadcast forgets the row. -/
theorem bidx_ix2 (p : Fin 8192) (j : Fin 4096) : idx_main_v17 (ix2 p j) = ix2 (0 : Fin 1) j := by
  funext a
  match a with
  | ⟨0, _⟩ => rfl
  | ⟨1, _⟩ => rfl

/-- The leading unit axis is dropped. -/
theorem vidx_ix2 (j : Fin 4096) : idx_main_v16 (ix2 (0 : Fin 1) j) = ix1 j := by
  funext a
  match a with
  | ⟨0, _⟩ => rfl

/-! ## The quantised weights -/

/-- The array of quantised weights, at any index, is `quant` of the weight entry there. -/
theorem quant_apply (x1 : (⟨S4096x4096, .f32⟩ : BufTy).Contents (Elt Ideal)) (i : S4096x4096.Idx) :
    val_main_v13 (F := Ideal) x1 i = Cert.Tern.quant (x1 i) := by
  rw [val_main_v13_apply, val_main_v5_apply, val_main_v4_apply, val_main_cst_1_apply,
    val_main_call2_v1_apply, val_main_call2_v0_apply, val_main_cst_6_apply,
    val_main_v12_apply, val_main_v7_apply, val_main_v6_apply, val_main_cst_2_apply,
    val_main_call1_v1_apply, val_main_call1_v0_apply, val_main_cst_5_apply,
    val_main_v11_apply, val_main_v10_apply, val_main_v8_apply, val_main_v9_apply, val_main_cst_3_apply,
    val_main_call0_v1_apply, val_main_call0_v0_apply, val_main_cst_4_apply,
    val_main_v3_apply, val_main_v1_apply, val_main_v0_apply, val_main_cst_apply,
    val_main_v2_apply, val_main_cst_0_apply]
  simp only [Ideal.ofBits_def, Ideal.addf_def, Ideal.hostDivf_def, Ideal.hostAbsf_def]
  unfold Cert.Tern.quant
  rfl

/-! ## The reference is the specification -/

/-- Entry `(p, j)` of the reference's result. -/
theorem ref_ix2 (x0 : (⟨S8192x4096, .f32⟩ : BufTy).Contents (Elt Ideal))
    (x1 : (⟨S4096x4096, .f32⟩ : BufTy).Contents (Elt Ideal))
    (x2 : (⟨S4096, .f32⟩ : BufTy).Contents (Elt Ideal)) (p : Fin 8192) (j : Fin 4096) :
    val_main_v18 (F := Ideal) x0 x1 x2 (ix2 p j) = Cert.Tern.entry x0 x1 x2 p j := by
  rw [val_main_v18_apply, val_main_v15_apply, val_main_v17_apply, val_main_v16_apply, bidx_ix2, vidx_ix2,
    Ideal.addf_def]
  unfold Cert.Tern.entry
  congr 1
  refine Finset.sum_congr rfl fun k _ => ?_
  rw [lidx_ix2, ridx_ix2, val_main_v14_apply, tidx_ix2, quant_apply]

/-- The reference's result array is the specification's, as functions of the three argument arrays. -/
theorem ref_eq (x0 : (⟨S8192x4096, .f32⟩ : BufTy).Contents (Elt Ideal))
    (x1 : (⟨S4096x4096, .f32⟩ : BufTy).Contents (Elt Ideal))
    (x2 : (⟨S4096, .f32⟩ : BufTy).Contents (Elt Ideal)) :
    val_main_v18 (F := Ideal) x0 x1 x2 = Cert.Tern.linear x0 x1 x2 := by
  funext i
  rw [eq_ix2 i]
  exact ref_ix2 x0 x1 x2 (i 0) (i 1)

end Cert.Tern.Ref

end
-- ==== Proof.lean ====
/-
  A ternary-weight linear layer, out = x · quant(w)ᵀ + b with x : [8192, 4096], w : [4096, 4096], b : [4096], as three
  pipelined passes (rewrite every weight by three comparisons; change x's format; multiply block by block with an accumulator
  carried over four inner steps, adding the bias at the last), against the same expression written whole.

  On the extended reals both are `Cert.Tern.linear`: the weight rewrite is the same scalar function `quant` on both sides,
  a change of format is the identity, and the kernel's sum of four block products of 1024 terms is the reference's one sum of
  4096 terms because addition of extended reals is commutative and associative — no cancellation or distribution is used, so
  the finiteness of the inputs is never needed. The three frames are the runs themselves: each program terminates on every
  weakly fair execution, faults nowhere, and leaves its three argument arrays as launched. The idealization rewrote nothing,
  so the kernel's idealization statement is trivial.
-/
import proofs.«126211_j23691039605071_2_alg».proof.Defs
import proofs.«126211_j23691039605071_2_alg».proof.Proof.Gen.Kernel
import proofs.«126211_j23691039605071_2_alg».proof.Proof.Gen.KernelIdeal
import proofs.«126211_j23691039605071_2_alg».proof.Proof.Gen.ReferenceIdeal
import proofs.«126211_j23691039605071_2_alg».proof.Proof.Gen.ReferenceIdeal.Run
import proofs.«126211_j23691039605071_2_alg».proof.Proof.Gen.ReferenceIdeal.Read
import proofs.«126211_j23691039605071_2_alg».proof.Proof.Gen.Pre_finite_inputs
import proofs.«126211_j23691039605071_2_alg».proof.Proof.K.Frame
import proofs.«126211_j23691039605071_2_alg».proof.Proof.KI.Frame
import proofs.«126211_j23691039605071_2_alg».proof.Proof.Result
import proofs.«126211_j23691039605071_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Fr.frame m ρ

/-- So does its reading on the extended reals. -/
theorem frame_kernel_ideal : Cert.frame_KernelIdeal := fun m ρ _ => Cert.KernelIdeal.Fr.frame m ρ

/-- The reference is a line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `linear` of the arguments. -/
theorem algebraic : Cert.algebraic_KernelIdeal_ReferenceIdeal := by
  intro m ρ m' ρ' _ hagree
  refine ⟨fun c => Cert.Tern.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Tern.Val.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq (F := Ideal) _ _ _).trans ?_
  rw [Cert.Tern.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
